-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S8192x1 : Shape := ⟨2, ![8192, 1]⟩
abbrev S1x8192 : Shape := ⟨2, ![1, 8192]⟩
abbrev S512x1024 : Shape := ⟨2, ![512, 1024]⟩
abbrev S2048x1024 : Shape := ⟨2, ![2048, 1024]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .bf16⟩
  | .hbm, ⟨3, _⟩ => ⟨S8192x1, .i32⟩
  | .hbm, ⟨4, _⟩ => ⟨S1x8192, .i32⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1, .i32⟩
  | .local _ .vmem, ⟨5, _⟩ => ⟨S512x1, .i32⟩
  | .local _ .vmem, ⟨6, _⟩ => ⟨S1x2048, .i32⟩
  | .local _ .vmem, ⟨7, _⟩ => ⟨S1x2048, .i32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  natLt_1_32 : 1 < 32
  reduces_S512x2048_S512 : S512x2048.Reduces [1] S512
  shapeCasts_S512_S512x1 : S512.ShapeCasts S512x1
  broadcasts_S512x1_S512x1024 : S512x1.Broadcasts S512x1024
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .bf16 = 32 ∨ (Rect.block (s := S8192x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.BitsEntry.lean ====
/-
  The attention kernel's region, part 1: what the region finds and how its body branches.

  Before the region @main writes three arrays from the arguments (x in the narrow float format, and the labels as
  a column and as a row); the region's five windows read x twice (a block of 512 query rows, a block of 2048 key
  rows), the label column and row, and write the result's 512-row block. The grid is 16 query blocks by 4 key
  blocks, key block innermost: point t has key block t mod 4. The body resets its three running statistics
  (row maximum, row normaliser, weighted sum) when the key block is 0 and writes the quotient to the result when
  the key block is 3; elsewhere the result's staging buffer is left untouched and is not written back.
-/
import proofs.«134597_j4166118277821_2_alg».proof.Proof.Gen.Kernel.Launch
import proofs.«134597_j4166118277821_2_alg».proof.Proof.Gen.Kernel.Skeleton
import proofs.«134597_j4166118277821_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the three host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the three host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, fetched there or not
    (when it is not fetched the block index has not moved), for any proof data whose array is the entry contents
    and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, fetched there or not
    (when it is not fetched the block index has not moved), for any proof data whose array is the entry contents
    and whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point, fetched there or not
    (when it is not fetched the block index has not moved), for any proof data whose array is the entry contents
    and whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every point, fetched there or not
    (when it is not fetched the block index has not moved), for any proof data whose array is the entry contents
    and whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- The first branch (reset the statistics) is taken when the key block is 0, -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- the second (write the quotient to the result) when it is 3. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-- The result window is idle, and not written back, exactly where the second branch is not taken. -/
theorem idleOut : ∀ t : Fin cfg0.N, ¬condLast (grid0.coords t) → cfg0.idle 4 (grid0.coords t) = true := by decide +kernel
theorem noFlushOut : ∀ t : Fin cfg0.N, ¬condLast (grid0.coords t) → (cfg0.win 4).flush t = false := by decide +kernel
theorem liveOut : ∀ t : Fin cfg0.N, condLast (grid0.coords t) → cfg0.idle 4 (grid0.coords t) = false := by decide +kernel

/-! ## The memrefs the body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
/-- The three statistics the body carries from point to point: the running row maximum, the running normaliser,
    the running weighted sum. -/
abbrev scMax : Memref sig .tc .vmem S512x1 .f32 := Memref.whole cc0_scratch0
abbrev scSum : Memref sig .tc .vmem S512x1 .f32 := Memref.whole cc0_scratch1
abbrev scAcc : Memref sig .tc .vmem S512x1024 .f32 := Memref.whole cc0_scratch2
/-- A view through which the result's staging contents are stated (either staging buffer serves). -/
abbrev VOut : View sig .tc .vmem S512x1024 .f32 := (Memref.whole cc0_stg4_0 : Memref sig .tc .vmem S512x1024 .f32).view

/-- What the region may use and need not describe, with the three statistics' buffers as memrefs at some contents. -/
theorem PhiA_eq (c : Dev nD) :
    (Pipeline.ΦA spec0 c : sProp 𝕄)
      = iprop(iprop((∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest0_eq]; simp only [scMax, scSum, scAcc, owns_whole]; try rfl

end Cert.Kernel.Flash

end
-- ==== Proof.BitsRunFirst.lean ====
/-
  The attention kernel's body at a point whose key block is 0 (and is not the last): the three statistics are
  reset (maximum to −∞, normaliser and weighted sum to 0) and then updated with this key block; nothing is stored
  into the result's buffer. The lists of pieces are what the stores leave in each statistic's buffer.
-/
import proofs.«134597_j4166118277821_2_alg».proof.Proof.BitsEntry

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs at their contents, the result's buffer at any contents (handed back
    untouched), the three statistics at anything — the body runs and leaves each statistic's buffer with the listed
    pieces written. -/
noncomputable def runFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) :
    Σ' (LS0 : List (View.Piece (Elt F) S512x1 .f32)) (LS1 : List (View.Piece (Elt F) S512x1 .f32)), { LS2 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, ?_, fun xi4 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexists _; iexact HS0
    isplitl [HS1]; · iexists _; iexact HS1
    iexists _; iexact HS2

end Cert.Kernel.Flash

end
-- ==== Proof.BitsRunMid.lean ====
/-
  The attention kernel's body at a point whose key block is neither the first nor the last: the three statistics,
  found as the point before left them, are updated with this key block; nothing is stored into the result's buffer.
-/
import proofs.«134597_j4166118277821_2_alg».proof.Proof.BitsRunFirst

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs at their contents, the result's buffer at any contents (handed back
    untouched), the three statistics at the contents the point before left — the body runs and leaves each
    statistic's buffer with the listed pieces written. -/
noncomputable def runMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, ?_, fun xi4 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexists _; iexact HS0
    isplitl [HS1]; · iexists _; iexact HS1
    iexists _; iexact HS2

end Cert.Kernel.Flash

end
-- ==== Proof.BitsRunLast.lean ====
/-
  The attention kernel's body at a point whose key block is the last: the three statistics, found as the point before
  left them, are updated with this key block, and the weighted sum divided by the normaliser is stored into the
  result's buffer, covering it.
-/
import proofs.«134597_j4166118277821_2_alg».proof.Proof.BitsRunMid

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs at their contents, the result's buffer at anything, the three statistics at
    the contents the point before left — the body runs and leaves the result's buffer and each statistic's buffer
    with the listed pieces written. -/
noncomputable def runLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    Σ' (L4 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Flash

end
-- ==== Proof.LibSharedLaunch.lean ====
/-
  A frame run for a pipeline whose INPUT windows may share an array.

  One array handed to a kernel through several input windows (the same operand passed twice with two block
  shapes) is read by each window's fetches and written by none; so the array's buffer, held whole at the region's
  entry, can be divided among those windows by shares, and every window ends holding the same, unchanged, contents.
  This file states the run of such a region once: given the body's obligation point by point, the division of the
  arrays among the windows at entry, and an invariant that starts from the core's scratch buffers at any contents and
  gives them back at the end, every weakly fair execution of @main terminates with each window's array at what the
  proof data compute and every other unscoped buffer as the region found it.
-/
import Idealize.ShloMosaic.Lib.Pipeline.Frame

noncomputable section

namespace Cert.LibSharedLaunch

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The run of a region whose input windows may share arrays, for a kernel with no semaphore of its own that does not
    use the generator register: the invariant is entered from the core's scoped buffers that are no staging buffer,
    each at some contents (`hin`), and returns them (`hout`); `hsplit` divides the buffers behind the arrays, each
    whole at the entry contents `V`, among the windows. The conclusion is the library's frame post. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (Ix := Unit) (Name := ℕ) (U := UR sig nD τ) (Lvl := ℕ) (cfgs p).spec c (V c))
    (fun c => by
      iintro H
      isplitr; · iempintro
      iexact H)
    (fun c => by
      iintro ⟨-, H⟩
      iapply (hin c); iexact H)
    (fun c => (hout c).trans (by
      iintro H
      isplitr; · iempintro
      iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h => h)

end Cert.LibSharedLaunch

end
-- ==== Proof.BitsFrame.lean ====
/-
  The attention kernel's region, part 2: what every point leaves, the invariant that carries the three statistics
  from point to point, the proof data (the two windows on x each hold half of the array's share), the body's
  obligation at every point, and the run: every execution terminates with each window's array at what the proof
  data compute and the arguments as launched.
-/
import proofs.«134597_j4166118277821_2_alg».proof.Proof.BitsRunLast
import proofs.«134597_j4166118277821_2_alg».proof.Proof.LibSharedLaunch
import Idealize.ShloMosaic.Lib.Ring

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores of this case tile the running maximum's buffer. -/
theorem coverMaxFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) (y : S512x1.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S512x1.size (by sl_kernel_rfl) y
/-- The stores of this case tile the running normaliser's buffer. -/
theorem coverSumFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) (y : S512x1.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S512x1.size (by sl_kernel_rfl) y
/-- The stores of this case tile the running weighted sum's buffer. -/
theorem coverAccFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) (y : S512x1024.Idx) :
    ∃ pc ∈ (runFirst c i arg2 harg2 arg3 harg3 arg4 harg4 arg5 harg5 arg6 harg6 arg7 harg7 arg8 harg8 arg9 harg9 hc0 hc1 x0 x1 x2 x3).2.2.1, y ∈ pc.1.set :=
  View.cover_of_tiledL (runFirst c i arg2 harg2 arg3 harg3 arg4 harg4 arg5 harg5 arg6 harg6 arg7 harg7 arg8 harg8 arg9 harg9 hc0 hc1 x0 x1 x2 x3).2.2.1 S512x1024.size (by sl_kernel_rfl) y
/-- The stores of this case tile the running maximum's buffer. -/
theorem coverMaxMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runMid c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1 xs2).1 S512x1.size (by sl_kernel_rfl) y
/-- The stores of this case tile the running normaliser's buffer. -/
theorem coverSumMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runMid c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1 xs2).2.1 S512x1.size (by sl_kernel_rfl) y
/-- The stores of this case tile the running weighted sum's buffer. -/
theorem coverAccMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1024.Idx) :
    ∃ pc ∈ (runMid c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1 xs2).2.2.1 S512x1024.size (by sl_kernel_rfl) y
/-- The stores of this case tile the running maximum's buffer. -/
theorem coverMaxLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).2.1 S512x1.size (by sl_kernel_rfl) y
/-- The stores of this case tile the running normaliser's buffer. -/
theorem coverSumLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).2.2.1 S512x1.size (by sl_kernel_rfl) y
/-- The stores of this case tile the running weighted sum's buffer. -/
theorem coverAccLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).2.2.2.1 S512x1024.size (by sl_kernel_rfl) y
/-- The store of the last key block covers the result's block. -/
theorem coverOutLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).1 S512x1024.size (by sl_kernel_rfl) y

/-- What this case leaves: the result's staging buffer (untouched here: a placeholder nothing consults), then the three statistics, each its pieces read back. -/
def stFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) : Vec F S512x1024 .f32 × Vec F S512x1 .f32 × Vec F S512x1 .f32 × Vec F S512x1024 .f32 :=
  (VOut.read (Elt F) VOut.junk,
   scMax.view.read (Elt F) (scMax.view.writes (Elt F) scMax.view.junk (runFirst c i arg2 harg2 arg3 harg3 arg4 harg4 arg5 harg5 arg6 harg6 arg7 harg7 arg8 harg8 arg9 harg9 hc0 hc1 x0 x1 x2 x3).1),
   scSum.view.read (Elt F) (scSum.view.writes (Elt F) scSum.view.junk (runFirst c i arg2 harg2 arg3 harg3 arg4 harg4 arg5 harg5 arg6 harg6 arg7 harg7 arg8 harg8 arg9 harg9 hc0 hc1 x0 x1 x2 x3).2.1),
   scAcc.view.read (Elt F) (scAcc.view.writes (Elt F) scAcc.view.junk (runFirst c i arg2 harg2 arg3 harg3 arg4 harg4 arg5 harg5 arg6 harg6 arg7 harg7 arg8 harg8 arg9 harg9 hc0 hc1 x0 x1 x2 x3).2.2.1))
/-- What this case leaves: the result's staging buffer (untouched here: a placeholder nothing consults), then the three statistics, each its pieces read back. -/
def stMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) : Vec F S512x1024 .f32 × Vec F S512x1 .f32 × Vec F S512x1 .f32 × Vec F S512x1024 .f32 :=
  (VOut.read (Elt F) VOut.junk,
   scMax.view.read (Elt F) (scMax.view.writes (Elt F) scMax.view.junk (runMid c i arg2 harg2 arg3 harg3 arg4 harg4 arg5 harg5 arg6 harg6 arg7 harg7 arg8 harg8 arg9 harg9 hc0 hc1 x0 x1 x2 x3 xs0 xs1 xs2).1),
   scSum.view.read (Elt F) (scSum.view.writes (Elt F) scSum.view.junk (runMid c i arg2 harg2 arg3 harg3 arg4 harg4 arg5 harg5 arg6 harg6 arg7 harg7 arg8 harg8 arg9 harg9 hc0 hc1 x0 x1 x2 x3 xs0 xs1 xs2).2.1),
   scAcc.view.read (Elt F) (scAcc.view.writes (Elt F) scAcc.view.junk (runMid c i arg2 harg2 arg3 harg3 arg4 harg4 arg5 harg5 arg6 harg6 arg7 harg7 arg8 harg8 arg9 harg9 hc0 hc1 x0 x1 x2 x3 xs0 xs1 xs2).2.2.1))
/-- What this case leaves: the result's staging buffer, then the three statistics, each its pieces read back. -/
def stLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) : Vec F S512x1024 .f32 × Vec F S512x1 .f32 × Vec F S512x1 .f32 × Vec F S512x1024 .f32 :=
  (VOut.read (Elt F) (VOut.writes (Elt F) VOut.junk (runLast c i arg2 harg2 arg3 harg3 arg4 harg4 arg5 harg5 arg6 harg6 arg7 harg7 arg8 harg8 arg9 harg9 hc0 hc1 x0 x1 x2 x3 xs0 xs1 xs2).1),
   scMax.view.read (Elt F) (scMax.view.writes (Elt F) scMax.view.junk (runLast c i arg2 harg2 arg3 harg3 arg4 harg4 arg5 harg5 arg6 harg6 arg7 harg7 arg8 harg8 arg9 harg9 hc0 hc1 x0 x1 x2 x3 xs0 xs1 xs2).2.1),
   scSum.view.read (Elt F) (scSum.view.writes (Elt F) scSum.view.junk (runLast c i arg2 harg2 arg3 harg3 arg4 harg4 arg5 harg5 arg6 harg6 arg7 harg7 arg8 harg8 arg9 harg9 hc0 hc1 x0 x1 x2 x3 xs0 xs1 xs2).2.2.1),
   scAcc.view.read (Elt F) (scAcc.view.writes (Elt F) scAcc.view.junk (runLast c i arg2 harg2 arg3 harg3 arg4 harg4 arg5 harg5 arg6 harg6 arg7 harg7 arg8 harg8 arg9 harg9 hc0 hc1 x0 x1 x2 x3 xs0 xs1 xs2).2.2.2.1))

/-! ## Point by point -/

/-- THE RECURSION over the grid's points. After point n: the result's staging buffer and the three statistics.
    A point whose key block is 0 starts afresh (its statistics do not depend on the point before); any other point
    updates what the point before left. -/
def outsAt (c : Dev nD) : (n : ℕ) → n < cfg0.N → Vec F S512x1024 .f32 × Vec F S512x1 .f32 × Vec F S512x1 .f32 × Vec F S512x1024 .f32
  | 0, hn => stFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 4 = 0 then
      stFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 4 = 3 then
        stLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2
      else
        stMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2

theorem outsAt_first (c : Dev nD) (t : Fin cfg0.N) (h0 : t.val % 4 = 0) (h1 : ¬t.val % 4 = 3) :
    outsAt m c t.val t.isLt = stFirst c (grid0.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => h1 ((hcondLast t).mp h)) (iblk m c 0 t) (iblk m c 1 t) (iblk m c 2 t) (iblk m c 3 t) := by
  obtain ⟨n, hn⟩ := t
  cases n with
  | zero => exact rfl
  | succ n => exact (dif_pos h0).trans rfl

theorem outsAt_mid (c : Dev nD) (t : Fin cfg0.N) (h0 : ¬t.val % 4 = 0) (h1 : ¬t.val % 4 = 3) :
    outsAt m c t.val t.isLt = stMid c (grid0.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = stLast c (grid0.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that no window stages are the three statistics' buffers. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scSum fullShare d) ∗ (∃ d, owns (c : Thread nD τ) scAcc fullShare d)) := by
  rw [scopedRest0_eq]; simp only [scMax, scSum, scAcc, owns_whole]; try rfl

/-- Before the first point the three statistics hold anything; before any later point, what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare ((outsAt m c n hn).2.1) ∗ owns (c : Thread nD τ) scSum fullShare ((outsAt m c n hn).2.2.1) ∗ owns (c : Thread nD τ) scAcc fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scMax fullShare ((outsAt m c n hn).2.1) ∗ owns (c : Thread nD τ) scSum fullShare ((outsAt m c n hn).2.2.1) ∗ owns (c : Thread nD τ) scAcc fullShare ((outsAt m c n hn).2.2.2)) := rfl

theorem PhiS_pos (c : Dev nD) (n : ℕ) (h : n ≤ cfg0.N) (hz : n ≠ 0) :
    PhiS m c n h = iprop(owns (c : Thread nD τ) scMax fullShare ((outsAt m c (n - 1) (by omega)).2.1) ∗ owns (c : Thread nD τ) scSum fullShare ((outsAt m c (n - 1) (by omega)).2.2.1) ∗ owns (c : Thread nD τ) scAcc fullShare ((outsAt m c (n - 1) (by omega)).2.2.2)) := by
  cases n with
  | zero => exact absurd rfl hz
  | succ n => rfl

/-! ## The proof data -/

/-- The arrays as the region finds them; after the body each input's buffer at its block and the result's at the
    recursion's first component; the invariant above; the two windows that read x hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = (outsAt m c t.val t.isLt).1 := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d

theorem leaves_in0 (c : Dev nD) (t : Fin cfg0.N) :
    (dats m 0 c).leavesExact 0 t = owns (c : Thread nD τ) (ms0 t) fullShare (iblk m c 0 t) := by
  rw [← after_in0]
theorem leaves_in1 (c : Dev nD) (t : Fin cfg0.N) :
    (dats m 0 c).leavesExact 1 t = owns (c : Thread nD τ) (ms1 t) fullShare (iblk m c 1 t) := by
  rw [← after_in1]
theorem leaves_in2 (c : Dev nD) (t : Fin cfg0.N) :
    (dats m 0 c).leavesExact 2 t = owns (c : Thread nD τ) (ms2 t) fullShare (iblk m c 2 t) := by
  rw [← after_in2]
theorem leaves_in3 (c : Dev nD) (t : Fin cfg0.N) :
    (dats m 0 c).leavesExact 3 t = owns (c : Thread nD τ) (ms3 t) fullShare (iblk m c 3 t) := by
  rw [← after_in3]

/-! ## The body's obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- At any point: the inputs' buffers hold their blocks; the key block decides the case; the statistics are handed
    over as the point before left them (at the very first point, at anything) and taken back as this point leaves
    them; the result's buffer is handed back untouched unless the key block is the last, when it is covered. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  by_cases h0 : t.val % 4 = 0
  · have h1 : ¬t.val % 4 = 3 := by omega
    have hc0 : condFirst (grid0.coords t) := (hcondFirst t).mpr h0
    have hc1 : ¬condLast (grid0.coords t) := fun h => h1 ((hcondLast t).mp h)
    rw [Dat.leavesExact_idle (dats m 0 c) 4 t (idleOut t hc1) (noFlushOut t hc1)]
    rw [outsAt_first m c t h0 h1]
    unfold stFirst; (try dsimp only)
    by_cases hz : t.val = 0
    · rw [PhiS_castSucc m c t, PhiS_zero m c _ _ hz, scoped_eq]
      iintro ⟨⟨HS0, HS1, HS2⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxFirst c _ _ _ _ _ _ _ _ _ _ _ _ _ _ _ _ _ _ _ _ _ _ _)
        isplitl [HS1]
        · unfold owns; iexists _; isplitr
          swap; · iexact HS1
          ipureintro; exact View.read_writes_of_cover _ _ _ _ _ (coverSumFirst c _ _ _ _ _ _ _ _ _ _ _ _ _ _ _ _ _ _ _ _ _ _ _)
        unfold owns; iexists _; isplitr
        swap; · iexact HS2
        ipureintro; exact View.read_writes_of_cover _ _ _ _ _ (coverAccFirst c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxFirst c _ _ _ _ _ _ _ _ _ _ _ _ _ _ _ _ _ _ _ _ _ _ _)
        isplitl [HS1]
        · unfold owns; iexists _; isplitr
          swap; · iexact HS1
          ipureintro; exact View.read_writes_of_cover _ _ _ _ _ (coverSumFirst c _ _ _ _ _ _ _ _ _ _ _ _ _ _ _ _ _ _ _ _ _ _ _)
        unfold owns; iexists _; isplitr
        swap; · iexact HS2
        ipureintro; exact View.read_writes_of_cover _ _ _ _ _ (coverAccFirst c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬condFirst (grid0.coords t) := fun h => h0 ((hcondFirst t).mp h)
    by_cases h1 : t.val % 4 = 3
    · have hc1 : condLast (grid0.coords t) := (hcondLast t).mpr h1
      rw [show (dats m 0 c).leavesExact 4 t = owns (c : Thread nD τ) (ms4 t) fullShare ((dats m 0 c).after 4 t) from by
        unfold Dat.leavesExact; rw [liveOut t hc1], after_out]
      rw [outsAt_last m c t h0 h1]
      unfold stLast; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ hc0 hc1 (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxLast c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverSumLast c _ _ _ _ _ _ _ _ _ _ _ _ _ _ _ _ _ _ _ _ _ _ _ _ _ _)
        unfold owns; iexists _; isplitr
        swap; · iexact HS2
        ipureintro; exact View.read_writes_of_cover _ _ _ _ _ (coverAccLast c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutLast c _ _ _ _ _ _ _ _ _ _ _ _ _ _ _ _ _ _ _ _ _ _ _ _ _ _)
    · have hc1 : ¬condLast (grid0.coords t) := fun h => h1 ((hcondLast t).mp h)
      rw [Dat.leavesExact_idle (dats m 0 c) 4 t (idleOut t hc1) (noFlushOut t hc1)]
      rw [outsAt_mid m c t h0 h1]
      unfold stMid; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ hc0 hc1 (iblk m c 0 t) (iblk m c 1 t) (iblk m c 2 t) (iblk m c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxMid c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverSumMid c _ _ _ _ _ _ _ _ _ _ _ _ _ _ _ _ _ _ _ _ _ _ _ _ _ _)
        unfold owns; iexists _; isplitr
        swap; · iexact HS2
        ipureintro; exact View.read_writes_of_cover _ _ _ _ _ (coverAccMid c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨HS0, HS1, HS2⟩
  isplitl [HS0]; · iexists _; iexact HS0
  isplitl [HS1]; · iexists _; iexact HS1
  iexists _; iexact HS2

/-- The four buffers behind the five windows' arrays, each whole at the entry contents, divided among the windows:
    the array x is read by two windows, each taking half of its share. -/
theorem hsplit (c : Dev nD) : (Pipeline.arrBufs spec0 c (V m c) : sProp 𝕄) ⊢ (dats m 0 c).arrays ((dats m 0 c).arrAt · 0) := by
  have himg : Finset.univ.image (Pipeline.arrRef spec0) = ([main_v0, main_v1, main_v2, main_v3] : List (Ref sig .tc)).toFinset := by decide
  have harrays : (dats m 0 c).arrays ((dats m 0 c).arrAt · 0)
      = bigSep Finset.univ fun w : Fin cfg0.W => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harrays, bigSep_W0]
  unfold Pipeline.arrBufs
  rw [show (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_v1) ↦{fullShare} V m c main_v1)
          ∗ (((c.tc : Thread nD τ).loc main_v2) ↦{fullShare} V m c main_v2) ∗ (((c.tc : Thread nD τ).loc main_v3) ↦{fullShare} V m c main_v3)) from
    Idealize.SL.BI.bigSep_eq_bigSepL_of_eq [main_v0, main_v1, main_v2, main_v3] himg (by decide) _]
  rw [show (dats m 0 c).share (0 : Fin cfg0.W) = fullShare.left from rfl, show (dats m 0 c).share (1 : Fin cfg0.W) = fullShare.right from rfl,
    show (dats m 0 c).share (2 : Fin cfg0.W) = fullShare from rfl, show (dats m 0 c).share (3 : Fin cfg0.W) = fullShare from rfl,
    show (dats m 0 c).share (4 : Fin cfg0.W) = fullShare from rfl]
  rw [show Pipeline.arrRef spec0 (0 : Fin cfg0.W) = main_v0 from rfl,
    show Pipeline.arrRef spec0 (2 : Fin cfg0.W) = main_v1 from rfl, show Pipeline.arrRef spec0 (3 : Fin cfg0.W) = main_v2 from rfl,
    show Pipeline.arrRef spec0 (4 : Fin cfg0.W) = main_v3 from rfl]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## The run -/

set_option backward.isDefEq.respectTransparency.types false in
/-- Every weakly fair execution of @main terminates, with every window's array at what the proof data compute and
    every other unscoped buffer as the region found it. -/
theorem run_main : θ_run defs (onTc (τ := τ) (main (F := F))) (s₀ m ρ) (Pipeline.FramePost cfgs (dats m) 0 (V m)) :=
  Cert.LibSharedLaunch.θ_run_frame_shared cfgs (dats m) (0 : Fin 1) cellOf_inj winFacts₀0 defs₀ Variants.none m ρ main
    (fun c => (body_obligation m c).loose) block_pos0 arr_whole0 stage_whole0 (fun _ _ => rfl) (V m) (hmain m Variants.none)
    (hsplit m) (hin m) (hout m)

/-- The two arguments end as launched: no window stages them, and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (V_main_arg0 m c),
     ((h c).2 main_arg1 (Pipeline.mem_restRefs_of main_arg1 rfl (by decide))).trans (V_main_arg1 m c)⟩) (run_main m ρ)

end Cert.Kernel.Flash

end
-- ==== Proof.IdealEntry.lean ====
/-
  The attention kernel's region, part 1: what the region finds and how its body branches.

  Before the region @main writes three arrays from the arguments (x in the narrow float format, and the labels as
  a column and as a row); the region's five windows read x twice (a block of 512 query rows, a block of 2048 key
  rows), the label column and row, and write the result's 512-row block. The grid is 16 query blocks by 4 key
  blocks, key block innermost: point t has key block t mod 4. The body resets its three running statistics
  (row maximum, row normaliser, weighted sum) when the key block is 0 and writes the quotient to the result when
  the key block is 3; elsewhere the result's staging buffer is left untouched and is not written back.
-/
import proofs.«134597_j4166118277821_2_alg».proof.Proof.Gen.KernelIdeal.Launch
import proofs.«134597_j4166118277821_2_alg».proof.Proof.Gen.KernelIdeal.Skeleton
import proofs.«134597_j4166118277821_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the three host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the three host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every point, fetched there or not
    (when it is not fetched the block index has not moved), for any proof data whose array is the entry contents
    and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, fetched there or not
    (when it is not fetched the block index has not moved), for any proof data whose array is the entry contents
    and whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point, fetched there or not
    (when it is not fetched the block index has not moved), for any proof data whose array is the entry contents
    and whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every point, fetched there or not
    (when it is not fetched the block index has not moved), for any proof data whose array is the entry contents
    and whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- The first branch (reset the statistics) is taken when the key block is 0, -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- the second (write the quotient to the result) when it is 3. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-- The result window is idle, and not written back, exactly where the second branch is not taken. -/
theorem idleOut : ∀ t : Fin cfg0.N, ¬condLast (grid0.coords t) → cfg0.idle 4 (grid0.coords t) = true := by decide +kernel
theorem noFlushOut : ∀ t : Fin cfg0.N, ¬condLast (grid0.coords t) → (cfg0.win 4).flush t = false := by decide +kernel
theorem liveOut : ∀ t : Fin cfg0.N, condLast (grid0.coords t) → cfg0.idle 4 (grid0.coords t) = false := by decide +kernel

/-! ## The memrefs the body is called with -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
/-- The three statistics the body carries from point to point: the running row maximum, the running normaliser,
    the running weighted sum. -/
abbrev scMax : Memref sig .tc .vmem S512x1 .f32 := Memref.whole cc0_scratch0
abbrev scSum : Memref sig .tc .vmem S512x1 .f32 := Memref.whole cc0_scratch1
abbrev scAcc : Memref sig .tc .vmem S512x1024 .f32 := Memref.whole cc0_scratch2
/-- A view through which the result's staging contents are stated (either staging buffer serves). -/
abbrev VOut : View sig .tc .vmem S512x1024 .f32 := (Memref.whole cc0_stg4_0 : Memref sig .tc .vmem S512x1024 .f32).view

/-- What the region may use and need not describe, with the three statistics' buffers as memrefs at some contents. -/
theorem PhiA_eq (c : Dev nD) :
    (Pipeline.ΦA spec0 c : sProp 𝕄)
      = iprop(iprop((∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest0_eq]; simp only [scMax, scSum, scAcc, owns_whole]; try rfl

end Cert.KernelIdeal.Flash

end
-- ==== Proof.IdealRunFirst.lean ====
/-
  The attention kernel's body at a point whose key block is 0 (and is not the last): the three statistics are
  reset (maximum to −∞, normaliser and weighted sum to 0) and then updated with this key block; nothing is stored
  into the result's buffer. The lists of pieces are what the stores leave in each statistic's buffer.
-/
import proofs.«134597_j4166118277821_2_alg».proof.Proof.IdealEntry

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs at their contents, the result's buffer at any contents (handed back
    untouched), the three statistics at anything — the body runs and leaves each statistic's buffer with the listed
    pieces written. -/
noncomputable def runFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) :
    Σ' (LS0 : List (View.Piece (Elt F) S512x1 .f32)) (LS1 : List (View.Piece (Elt F) S512x1 .f32)), { LS2 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, ?_, fun xi4 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexists _; iexact HS0
    isplitl [HS1]; · iexists _; iexact HS1
    iexists _; iexact HS2

end Cert.KernelIdeal.Flash

end
-- ==== Proof.IdealRunMid.lean ====
/-
  The attention kernel's body at a point whose key block is neither the first nor the last: the three statistics,
  found as the point before left them, are updated with this key block; nothing is stored into the result's buffer.
-/
import proofs.«134597_j4166118277821_2_alg».proof.Proof.IdealRunFirst

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs at their contents, the result's buffer at any contents (handed back
    untouched), the three statistics at the contents the point before left — the body runs and leaves each
    statistic's buffer with the listed pieces written. -/
noncomputable def runMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, ?_, fun xi4 E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]; · iexists _; iexact HS0
    isplitl [HS1]; · iexists _; iexact HS1
    iexists _; iexact HS2

end Cert.KernelIdeal.Flash

end
-- ==== Proof.IdealRunLast.lean ====
/-
  The attention kernel's body at a point whose key block is the last: the three statistics, found as the point before
  left them, are updated with this key block, and the weighted sum divided by the normaliser is stored into the
  result's buffer, covering it.
-/
import proofs.«134597_j4166118277821_2_alg».proof.Proof.IdealRunMid

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the four inputs at their contents, the result's buffer at anything, the three statistics at
    the contents the point before left — the body runs and leaves the result's buffer and each statistic's buffer
    with the listed pieces written. -/
noncomputable def runLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    Σ' (L4 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Flash

end
-- ==== Proof.IdealFrame.lean ====
/-
  The attention kernel's region, part 2: what every point leaves, the invariant that carries the three statistics
  from point to point, the proof data (the two windows on x each hold half of the array's share), the body's
  obligation at every point, and the run: every execution terminates with each window's array at what the proof
  data compute and the arguments as launched.
-/
import proofs.«134597_j4166118277821_2_alg».proof.Proof.IdealRunLast
import proofs.«134597_j4166118277821_2_alg».proof.Proof.LibSharedLaunch
import Idealize.ShloMosaic.Lib.Ring

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores of this case tile the running maximum's buffer. -/
theorem coverMaxFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) (y : S512x1.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S512x1.size (by sl_kernel_rfl) y
/-- The stores of this case tile the running normaliser's buffer. -/
theorem coverSumFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) (y : S512x1.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S512x1.size (by sl_kernel_rfl) y
/-- The stores of this case tile the running weighted sum's buffer. -/
theorem coverAccFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) (y : S512x1024.Idx) :
    ∃ pc ∈ (runFirst c i arg2 harg2 arg3 harg3 arg4 harg4 arg5 harg5 arg6 harg6 arg7 harg7 arg8 harg8 arg9 harg9 hc0 hc1 x0 x1 x2 x3).2.2.1, y ∈ pc.1.set :=
  View.cover_of_tiledL (runFirst c i arg2 harg2 arg3 harg3 arg4 harg4 arg5 harg5 arg6 harg6 arg7 harg7 arg8 harg8 arg9 harg9 hc0 hc1 x0 x1 x2 x3).2.2.1 S512x1024.size (by sl_kernel_rfl) y
/-- The stores of this case tile the running maximum's buffer. -/
theorem coverMaxMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runMid c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1 xs2).1 S512x1.size (by sl_kernel_rfl) y
/-- The stores of this case tile the running normaliser's buffer. -/
theorem coverSumMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runMid c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1 xs2).2.1 S512x1.size (by sl_kernel_rfl) y
/-- The stores of this case tile the running weighted sum's buffer. -/
theorem coverAccMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1024.Idx) :
    ∃ pc ∈ (runMid c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1 xs2).2.2.1 S512x1024.size (by sl_kernel_rfl) y
/-- The stores of this case tile the running maximum's buffer. -/
theorem coverMaxLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).2.1 S512x1.size (by sl_kernel_rfl) y
/-- The stores of this case tile the running normaliser's buffer. -/
theorem coverSumLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).2.2.1 S512x1.size (by sl_kernel_rfl) y
/-- The stores of this case tile the running weighted sum's buffer. -/
theorem coverAccLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).2.2.2.1 S512x1024.size (by sl_kernel_rfl) y
/-- The store of the last key block covers the result's block. -/
theorem coverOutLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1 xs2).1 S512x1024.size (by sl_kernel_rfl) y

/-- What this case leaves: the result's staging buffer (untouched here: a placeholder nothing consults), then the three statistics, each its pieces read back. -/
def stFirst (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) : Vec F S512x1024 .f32 × Vec F S512x1 .f32 × Vec F S512x1 .f32 × Vec F S512x1024 .f32 :=
  (VOut.read (Elt F) VOut.junk,
   scMax.view.read (Elt F) (scMax.view.writes (Elt F) scMax.view.junk (runFirst c i arg2 harg2 arg3 harg3 arg4 harg4 arg5 harg5 arg6 harg6 arg7 harg7 arg8 harg8 arg9 harg9 hc0 hc1 x0 x1 x2 x3).1),
   scSum.view.read (Elt F) (scSum.view.writes (Elt F) scSum.view.junk (runFirst c i arg2 harg2 arg3 harg3 arg4 harg4 arg5 harg5 arg6 harg6 arg7 harg7 arg8 harg8 arg9 harg9 hc0 hc1 x0 x1 x2 x3).2.1),
   scAcc.view.read (Elt F) (scAcc.view.writes (Elt F) scAcc.view.junk (runFirst c i arg2 harg2 arg3 harg3 arg4 harg4 arg5 harg5 arg6 harg6 arg7 harg7 arg8 harg8 arg9 harg9 hc0 hc1 x0 x1 x2 x3).2.2.1))
/-- What this case leaves: the result's staging buffer (untouched here: a placeholder nothing consults), then the three statistics, each its pieces read back. -/
def stMid (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) : Vec F S512x1024 .f32 × Vec F S512x1 .f32 × Vec F S512x1 .f32 × Vec F S512x1024 .f32 :=
  (VOut.read (Elt F) VOut.junk,
   scMax.view.read (Elt F) (scMax.view.writes (Elt F) scMax.view.junk (runMid c i arg2 harg2 arg3 harg3 arg4 harg4 arg5 harg5 arg6 harg6 arg7 harg7 arg8 harg8 arg9 harg9 hc0 hc1 x0 x1 x2 x3 xs0 xs1 xs2).1),
   scSum.view.read (Elt F) (scSum.view.writes (Elt F) scSum.view.junk (runMid c i arg2 harg2 arg3 harg3 arg4 harg4 arg5 harg5 arg6 harg6 arg7 harg7 arg8 harg8 arg9 harg9 hc0 hc1 x0 x1 x2 x3 xs0 xs1 xs2).2.1),
   scAcc.view.read (Elt F) (scAcc.view.writes (Elt F) scAcc.view.junk (runMid c i arg2 harg2 arg3 harg3 arg4 harg4 arg5 harg5 arg6 harg6 arg7 harg7 arg8 harg8 arg9 harg9 hc0 hc1 x0 x1 x2 x3 xs0 xs1 xs2).2.2.1))
/-- What this case leaves: the result's staging buffer, then the three statistics, each its pieces read back. -/
def stLast (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) : Vec F S512x1024 .f32 × Vec F S512x1 .f32 × Vec F S512x1 .f32 × Vec F S512x1024 .f32 :=
  (VOut.read (Elt F) (VOut.writes (Elt F) VOut.junk (runLast c i arg2 harg2 arg3 harg3 arg4 harg4 arg5 harg5 arg6 harg6 arg7 harg7 arg8 harg8 arg9 harg9 hc0 hc1 x0 x1 x2 x3 xs0 xs1 xs2).1),
   scMax.view.read (Elt F) (scMax.view.writes (Elt F) scMax.view.junk (runLast c i arg2 harg2 arg3 harg3 arg4 harg4 arg5 harg5 arg6 harg6 arg7 harg7 arg8 harg8 arg9 harg9 hc0 hc1 x0 x1 x2 x3 xs0 xs1 xs2).2.1),
   scSum.view.read (Elt F) (scSum.view.writes (Elt F) scSum.view.junk (runLast c i arg2 harg2 arg3 harg3 arg4 harg4 arg5 harg5 arg6 harg6 arg7 harg7 arg8 harg8 arg9 harg9 hc0 hc1 x0 x1 x2 x3 xs0 xs1 xs2).2.2.1),
   scAcc.view.read (Elt F) (scAcc.view.writes (Elt F) scAcc.view.junk (runLast c i arg2 harg2 arg3 harg3 arg4 harg4 arg5 harg5 arg6 harg6 arg7 harg7 arg8 harg8 arg9 harg9 hc0 hc1 x0 x1 x2 x3 xs0 xs1 xs2).2.2.2.1))

/-! ## Point by point -/

/-- THE RECURSION over the grid's points. After point n: the result's staging buffer and the three statistics.
    A point whose key block is 0 starts afresh (its statistics do not depend on the point before); any other point
    updates what the point before left. -/
def outsAt (c : Dev nD) : (n : ℕ) → n < cfg0.N → Vec F S512x1024 .f32 × Vec F S512x1 .f32 × Vec F S512x1 .f32 × Vec F S512x1024 .f32
  | 0, hn => stFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 4 = 0 then
      stFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 4 = 3 then
        stLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2
      else
        stMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2.1 (outsAt c n (Nat.lt_of_succ_lt hn)).2.2.2

theorem outsAt_first (c : Dev nD) (t : Fin cfg0.N) (h0 : t.val % 4 = 0) (h1 : ¬t.val % 4 = 3) :
    outsAt m c t.val t.isLt = stFirst c (grid0.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => h1 ((hcondLast t).mp h)) (iblk m c 0 t) (iblk m c 1 t) (iblk m c 2 t) (iblk m c 3 t) := by
  obtain ⟨n, hn⟩ := t
  cases n with
  | zero => exact rfl
  | succ n => exact (dif_pos h0).trans rfl

theorem outsAt_mid (c : Dev nD) (t : Fin cfg0.N) (h0 : ¬t.val % 4 = 0) (h1 : ¬t.val % 4 = 3) :
    outsAt m c t.val t.isLt = stMid c (grid0.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = stLast c (grid0.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that no window stages are the three statistics' buffers. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scSum fullShare d) ∗ (∃ d, owns (c : Thread nD τ) scAcc fullShare d)) := by
  rw [scopedRest0_eq]; simp only [scMax, scSum, scAcc, owns_whole]; try rfl

/-- Before the first point the three statistics hold anything; before any later point, what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare ((outsAt m c n hn).2.1) ∗ owns (c : Thread nD τ) scSum fullShare ((outsAt m c n hn).2.2.1) ∗ owns (c : Thread nD τ) scAcc fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scMax fullShare ((outsAt m c n hn).2.1) ∗ owns (c : Thread nD τ) scSum fullShare ((outsAt m c n hn).2.2.1) ∗ owns (c : Thread nD τ) scAcc fullShare ((outsAt m c n hn).2.2.2)) := rfl

theorem PhiS_pos (c : Dev nD) (n : ℕ) (h : n ≤ cfg0.N) (hz : n ≠ 0) :
    PhiS m c n h = iprop(owns (c : Thread nD τ) scMax fullShare ((outsAt m c (n - 1) (by omega)).2.1) ∗ owns (c : Thread nD τ) scSum fullShare ((outsAt m c (n - 1) (by omega)).2.2.1) ∗ owns (c : Thread nD τ) scAcc fullShare ((outsAt m c (n - 1) (by omega)).2.2.2)) := by
  cases n with
  | zero => exact absurd rfl hz
  | succ n => rfl

/-! ## The proof data -/

/-- The arrays as the region finds them; after the body each input's buffer at its block and the result's at the
    recursion's first component; the invariant above; the two windows that read x hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = (outsAt m c t.val t.isLt).1 := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d

theorem leaves_in0 (c : Dev nD) (t : Fin cfg0.N) :
    (dats m 0 c).leavesExact 0 t = owns (c : Thread nD τ) (ms0 t) fullShare (iblk m c 0 t) := by
  rw [← after_in0]
theorem leaves_in1 (c : Dev nD) (t : Fin cfg0.N) :
    (dats m 0 c).leavesExact 1 t = owns (c : Thread nD τ) (ms1 t) fullShare (iblk m c 1 t) := by
  rw [← after_in1]
theorem leaves_in2 (c : Dev nD) (t : Fin cfg0.N) :
    (dats m 0 c).leavesExact 2 t = owns (c : Thread nD τ) (ms2 t) fullShare (iblk m c 2 t) := by
  rw [← after_in2]
theorem leaves_in3 (c : Dev nD) (t : Fin cfg0.N) :
    (dats m 0 c).leavesExact 3 t = owns (c : Thread nD τ) (ms3 t) fullShare (iblk m c 3 t) := by
  rw [← after_in3]

/-! ## The body's obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- At any point: the inputs' buffers hold their blocks; the key block decides the case; the statistics are handed
    over as the point before left them (at the very first point, at anything) and taken back as this point leaves
    them; the result's buffer is handed back untouched unless the key block is the last, when it is covered. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  by_cases h0 : t.val % 4 = 0
  · have h1 : ¬t.val % 4 = 3 := by omega
    have hc0 : condFirst (grid0.coords t) := (hcondFirst t).mpr h0
    have hc1 : ¬condLast (grid0.coords t) := fun h => h1 ((hcondLast t).mp h)
    rw [Dat.leavesExact_idle (dats m 0 c) 4 t (idleOut t hc1) (noFlushOut t hc1)]
    rw [outsAt_first m c t h0 h1]
    unfold stFirst; (try dsimp only)
    by_cases hz : t.val = 0
    · rw [PhiS_castSucc m c t, PhiS_zero m c _ _ hz, scoped_eq]
      iintro ⟨⟨HS0, HS1, HS2⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxFirst c _ _ _ _ _ _ _ _ _ _ _ _ _ _ _ _ _ _ _ _ _ _ _)
        isplitl [HS1]
        · unfold owns; iexists _; isplitr
          swap; · iexact HS1
          ipureintro; exact View.read_writes_of_cover _ _ _ _ _ (coverSumFirst c _ _ _ _ _ _ _ _ _ _ _ _ _ _ _ _ _ _ _ _ _ _ _)
        unfold owns; iexists _; isplitr
        swap; · iexact HS2
        ipureintro; exact View.read_writes_of_cover _ _ _ _ _ (coverAccFirst c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ _ _ hc0 hc1 (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxFirst c _ _ _ _ _ _ _ _ _ _ _ _ _ _ _ _ _ _ _ _ _ _ _)
        isplitl [HS1]
        · unfold owns; iexists _; isplitr
          swap; · iexact HS1
          ipureintro; exact View.read_writes_of_cover _ _ _ _ _ (coverSumFirst c _ _ _ _ _ _ _ _ _ _ _ _ _ _ _ _ _ _ _ _ _ _ _)
        unfold owns; iexists _; isplitr
        swap; · iexact HS2
        ipureintro; exact View.read_writes_of_cover _ _ _ _ _ (coverAccFirst c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬condFirst (grid0.coords t) := fun h => h0 ((hcondFirst t).mp h)
    by_cases h1 : t.val % 4 = 3
    · have hc1 : condLast (grid0.coords t) := (hcondLast t).mpr h1
      rw [show (dats m 0 c).leavesExact 4 t = owns (c : Thread nD τ) (ms4 t) fullShare ((dats m 0 c).after 4 t) from by
        unfold Dat.leavesExact; rw [liveOut t hc1], after_out]
      rw [outsAt_last m c t h0 h1]
      unfold stLast; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ _ _ hc0 hc1 (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxLast c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverSumLast c _ _ _ _ _ _ _ _ _ _ _ _ _ _ _ _ _ _ _ _ _ _ _ _ _ _)
        unfold owns; iexists _; isplitr
        swap; · iexact HS2
        ipureintro; exact View.read_writes_of_cover _ _ _ _ _ (coverAccLast c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutLast c _ _ _ _ _ _ _ _ _ _ _ _ _ _ _ _ _ _ _ _ _ _ _ _ _ _)
    · have hc1 : ¬condLast (grid0.coords t) := fun h => h1 ((hcondLast t).mp h)
      rw [Dat.leavesExact_idle (dats m 0 c) 4 t (idleOut t hc1) (noFlushOut t hc1)]
      rw [outsAt_mid m c t h0 h1]
      unfold stMid; (try dsimp only)
      rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ _ _ hc0 hc1 (iblk m c 0 t) (iblk m c 1 t) (iblk m c 2 t) (iblk m c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2]
      · isplitl [HS0]
        · unfold owns; iexists _; isplitr
          swap; · iexact HS0
          ipureintro; exact View.read_writes_of_cover _ _ _ _ _ (coverMaxMid c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverSumMid c _ _ _ _ _ _ _ _ _ _ _ _ _ _ _ _ _ _ _ _ _ _ _ _ _ _)
        unfold owns; iexists _; isplitr
        swap; · iexact HS2
        ipureintro; exact View.read_writes_of_cover _ _ _ _ _ (coverAccMid c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨HS0, HS1, HS2⟩
  isplitl [HS0]; · iexists _; iexact HS0
  isplitl [HS1]; · iexists _; iexact HS1
  iexists _; iexact HS2

/-- The four buffers behind the five windows' arrays, each whole at the entry contents, divided among the windows:
    the array x is read by two windows, each taking half of its share. -/
theorem hsplit (c : Dev nD) : (Pipeline.arrBufs spec0 c (V m c) : sProp 𝕄) ⊢ (dats m 0 c).arrays ((dats m 0 c).arrAt · 0) := by
  have himg : Finset.univ.image (Pipeline.arrRef spec0) = ([main_v0, main_v1, main_v2, main_v3] : List (Ref sig .tc)).toFinset := by decide
  have harrays : (dats m 0 c).arrays ((dats m 0 c).arrAt · 0)
      = bigSep Finset.univ fun w : Fin cfg0.W => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harrays, bigSep_W0]
  unfold Pipeline.arrBufs
  rw [show (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_v1) ↦{fullShare} V m c main_v1)
          ∗ (((c.tc : Thread nD τ).loc main_v2) ↦{fullShare} V m c main_v2) ∗ (((c.tc : Thread nD τ).loc main_v3) ↦{fullShare} V m c main_v3)) from
    Idealize.SL.BI.bigSep_eq_bigSepL_of_eq [main_v0, main_v1, main_v2, main_v3] himg (by decide) _]
  rw [show (dats m 0 c).share (0 : Fin cfg0.W) = fullShare.left from rfl, show (dats m 0 c).share (1 : Fin cfg0.W) = fullShare.right from rfl,
    show (dats m 0 c).share (2 : Fin cfg0.W) = fullShare from rfl, show (dats m 0 c).share (3 : Fin cfg0.W) = fullShare from rfl,
    show (dats m 0 c).share (4 : Fin cfg0.W) = fullShare from rfl]
  rw [show Pipeline.arrRef spec0 (0 : Fin cfg0.W) = main_v0 from rfl,
    show Pipeline.arrRef spec0 (2 : Fin cfg0.W) = main_v1 from rfl, show Pipeline.arrRef spec0 (3 : Fin cfg0.W) = main_v2 from rfl,
    show Pipeline.arrRef spec0 (4 : Fin cfg0.W) = main_v3 from rfl]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## The run -/

set_option backward.isDefEq.respectTransparency.types false in
/-- Every weakly fair execution of @main terminates, with every window's array at what the proof data compute and
    every other unscoped buffer as the region found it. -/
theorem run_main : θ_run defs (onTc (τ := τ) (main (F := F))) (s₀ m ρ) (Pipeline.FramePost cfgs (dats m) 0 (V m)) :=
  Cert.LibSharedLaunch.θ_run_frame_shared cfgs (dats m) (0 : Fin 1) cellOf_inj winFacts₀0 defs₀ Variants.none m ρ main
    (fun c => (body_obligation m c).loose) block_pos0 arr_whole0 stage_whole0 (fun _ _ => rfl) (V m) (hmain m Variants.none)
    (hsplit m) (hin m) (hout m)

/-- The two arguments end as launched: no window stages them, and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (V_main_arg0 m c),
     ((h c).2 main_arg1 (Pipeline.mem_restRefs_of main_arg1 rfl (by decide))).trans (V_main_arg1 m c)⟩) (run_main m ρ)

end Cert.KernelIdeal.Flash

end
-- ==== Proof.IdealPieces.lean ====
/-
  The attention kernel's region, part 3: what each case's stores leave, read back as values. Each statistic's buffer ends
  at one pure term of what the body loaded: the new maximum, the rescaled normaliser plus this block's weights, the
  rescaled weighted sum plus this block's contribution; at a key block 0 the loaded statistics are the reset values;
  at the last key block the result's buffer ends at the quotient.
-/
import proofs.«134597_j4166118277821_2_alg».proof.Proof.IdealFrame
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## A key block that is neither the first nor the last -/

theorem mid_max (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stMid c i arg2 harg2 arg3 harg3 arg4 harg4 arg5 harg5 arg6 harg6 arg7 harg7 arg8 harg8 arg9 harg9 hc0 hc1 x0 x1 x2 x3 xs0 xs1 xs2).2.1 = k0_pay2 (k0_pay9 x0 x1 x2 x3 xs0) := by
  unfold stMid; dsimp only
  rw [View.read_writes_eq_canon _ _ _ (coverMaxMid c i arg2 harg2 arg3 harg3 arg4 harg4 arg5 harg5 arg6 harg6 arg7 harg7 arg8 harg8 arg9 harg9 hc0 hc1 x0 x1 x2 x3 xs0 xs1 xs2)]
  unfold runMid
  dsimp only
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz]

theorem mid_sum (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stMid c i arg2 harg2 arg3 harg3 arg4 harg4 arg5 harg5 arg6 harg6 arg7 harg7 arg8 harg8 arg9 harg9 hc0 hc1 x0 x1 x2 x3 xs0 xs1 xs2).2.2.1 = k0_pay12 x0 x1 x2 x3 xs0 xs1 := by
  unfold stMid; dsimp only
  rw [View.read_writes_eq_canon _ _ _ (coverSumMid c i arg2 harg2 arg3 harg3 arg4 harg4 arg5 harg5 arg6 harg6 arg7 harg7 arg8 harg8 arg9 harg9 hc0 hc1 x0 x1 x2 x3 xs0 xs1 xs2)]
  unfold runMid
  dsimp only
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz]

theorem mid_acc (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : ¬condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stMid c i arg2 harg2 arg3 harg3 arg4 harg4 arg5 harg5 arg6 harg6 arg7 harg7 arg8 harg8 arg9 harg9 hc0 hc1 x0 x1 x2 x3 xs0 xs1 xs2).2.2.2 = k0_pay1 (k0_pay7 x1) (k0_pay10 x0 x1 x2 x3 xs0) (k0_pay11 x0 x1 x2 x3 xs0) xs2 := by
  unfold stMid; dsimp only
  rw [View.read_writes_eq_canon _ _ _ (coverAccMid c i arg2 harg2 arg3 harg3 arg4 harg4 arg5 harg5 arg6 harg6 arg7 harg7 arg8 harg8 arg9 harg9 hc0 hc1 x0 x1 x2 x3 xs0 xs1 xs2)]
  unfold runMid
  dsimp only
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz]

/-! ## The last key block -/

theorem last_max (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stLast c i arg2 harg2 arg3 harg3 arg4 harg4 arg5 harg5 arg6 harg6 arg7 harg7 arg8 harg8 arg9 harg9 hc0 hc1 x0 x1 x2 x3 xs0 xs1 xs2).2.1 = k0_pay2 (k0_pay9 x0 x1 x2 x3 xs0) := by
  unfold stLast; dsimp only
  rw [View.read_writes_eq_canon _ _ _ (coverMaxLast c i arg2 harg2 arg3 harg3 arg4 harg4 arg5 harg5 arg6 harg6 arg7 harg7 arg8 harg8 arg9 harg9 hc0 hc1 x0 x1 x2 x3 xs0 xs1 xs2)]
  unfold runLast
  dsimp only
  try sl_unfold_words
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

theorem last_sum (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stLast c i arg2 harg2 arg3 harg3 arg4 harg4 arg5 harg5 arg6 harg6 arg7 harg7 arg8 harg8 arg9 harg9 hc0 hc1 x0 x1 x2 x3 xs0 xs1 xs2).2.2.1 = k0_pay12 x0 x1 x2 x3 xs0 xs1 := by
  unfold stLast; dsimp only
  rw [View.read_writes_eq_canon _ _ _ (coverSumLast c i arg2 harg2 arg3 harg3 arg4 harg4 arg5 harg5 arg6 harg6 arg7 harg7 arg8 harg8 arg9 harg9 hc0 hc1 x0 x1 x2 x3 xs0 xs1 xs2)]
  unfold runLast
  dsimp only
  try sl_unfold_words
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

theorem last_acc (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stLast c i arg2 harg2 arg3 harg3 arg4 harg4 arg5 harg5 arg6 harg6 arg7 harg7 arg8 harg8 arg9 harg9 hc0 hc1 x0 x1 x2 x3 xs0 xs1 xs2).2.2.2 = k0_pay1 (k0_pay7 x1) (k0_pay10 x0 x1 x2 x3 xs0) (k0_pay11 x0 x1 x2 x3 xs0) xs2 := by
  unfold stLast; dsimp only
  rw [View.read_writes_eq_canon _ _ _ (coverAccLast c i arg2 harg2 arg3 harg3 arg4 harg4 arg5 harg5 arg6 harg6 arg7 harg7 arg8 harg8 arg9 harg9 hc0 hc1 x0 x1 x2 x3 xs0 xs1 xs2)]
  unfold runLast
  dsimp only
  try sl_unfold_words
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

theorem last_out (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬condFirst i) (hc1 : condLast i)
    (x0 : Vec F S512x1024 .bf16) (x1 : Vec F S2048x1024 .bf16) (x2 : Vec F S512x1 .i32) (x3 : Vec F S1x2048 .i32) (xs0 : Vec F S512x1 .f32) (xs1 : Vec F S512x1 .f32) (xs2 : Vec F S512x1024 .f32) :
    (stLast c i arg2 harg2 arg3 harg3 arg4 harg4 arg5 harg5 arg6 harg6 arg7 harg7 arg8 harg8 arg9 harg9 hc0 hc1 x0 x1 x2 x3 xs0 xs1 xs2).1 = k0_pay3 (k0_pay1 (k0_pay7 x1) (k0_pay10 x0 x1 x2 x3 xs0) (k0_pay11 x0 x1 x2 x3 xs0) xs2) (k0_pay12 x0 x1 x2 x3 xs0 xs1) := by
  unfold stLast; dsimp only
  rw [View.read_writes_eq_canon _ _ _ (coverOutLast c i arg2 harg2 arg3 harg3 arg4 harg4 arg5 harg5 arg6 harg6 arg7 harg7 arg8 harg8 arg9 harg9 hc0 hc1 x0 x1 x2 x3 xs0 xs1 xs2)]
  unfold runLast
  dsimp only
  try sl_unfold_words
  rw [View.canon_unit_zero hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

/-! ## The first key block: the loaded statistics are the reset values -/

theorem first_max (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) :
    (stFirst c i arg2 harg2 arg3 harg3 arg4 harg4 arg5 harg5 arg6 harg6 arg7 harg7 arg8 harg8 arg9 harg9 hc0 hc1 x0 x1 x2 x3).2.1 = k0_pay2 (k0_pay9 x0 x1 x2 x3 k0_pay4) := by
  unfold stFirst; dsimp only
  rw [View.read_writes_eq_canon _ _ _ (coverMaxFirst c i arg2 harg2 arg3 harg3 arg4 harg4 arg5 harg5 arg6 harg6 arg7 harg7 arg8 harg8 arg9 harg9 hc0 hc1 x0 x1 x2 x3)]
  unfold runFirst
  dsimp only
  try sl_unfold_words
  rw [View.canon_cons_unit_zero (S := S512x1) hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

theorem first_sum (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) :
    (stFirst c i arg2 harg2 arg3 harg3 arg4 harg4 arg5 harg5 arg6 harg6 arg7 harg7 arg8 harg8 arg9 harg9 hc0 hc1 x0 x1 x2 x3).2.2.1 = k0_pay12 x0 x1 x2 x3 k0_pay4 k0_pay5 := by
  unfold stFirst; dsimp only
  rw [View.read_writes_eq_canon _ _ _ (coverSumFirst c i arg2 harg2 arg3 harg3 arg4 harg4 arg5 harg5 arg6 harg6 arg7 harg7 arg8 harg8 arg9 harg9 hc0 hc1 x0 x1 x2 x3)]
  unfold runFirst
  dsimp only
  try sl_unfold_words
  rw [View.canon_cons_unit_zero (S := S512x1) hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

theorem first_acc (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : condFirst i) (hc1 : ¬condLast i)
    (x0 : Vec F S512x1024 .bf16) (x1 : Vec F S2048x1024 .bf16) (x2 : Vec F S512x1 .i32) (x3 : Vec F S1x2048 .i32) :
    (stFirst c i arg2 harg2 arg3 harg3 arg4 harg4 arg5 harg5 arg6 harg6 arg7 harg7 arg8 harg8 arg9 harg9 hc0 hc1 x0 x1 x2 x3).2.2.2 = k0_pay1 (k0_pay7 x1) (k0_pay10 x0 x1 x2 x3 k0_pay4) (k0_pay11 x0 x1 x2 x3 k0_pay4) k0_pay6 := by
  unfold stFirst; dsimp only
  rw [View.read_writes_eq_canon _ _ _ (coverAccFirst c i arg2 harg2 arg3 harg3 arg4 harg4 arg5 harg5 arg6 harg6 arg7 harg7 arg8 harg8 arg9 harg9 hc0 hc1 x0 x1 x2 x3)]
  unfold runFirst
  dsimp only
  try sl_unfold_words
  rw [View.canon_cons_unit_zero (S := S512x1024) hz]
  simp only [View.readAt_eq_ld, harg2.read_unread, harg3.read_unread, harg4.read_unread, harg5.read_unread, harg7.read_unread, harg8.read_unread, harg9.read_unread,
    View.ld_unit_zero (S := S512x1) hz, View.ld_unit_zero (S := S512x1024) hz, View.ld_unit_zero (S := S2048x1024) hz, View.ld_unit_zero (S := S1x2048) hz,
    View.readCov_unit_zero (S := S512x1) _ hz, View.readCov_unit_zero (S := S512x1024) _ hz]

end Cert.KernelIdeal.Flash

end
-- ==== Proof.IdealBlocks.lean ====
/-
  The attention kernel's region, part 2: what the region finds, index by index.

  Before the region @main writes x in the narrow float format (at the ideal instance the narrowing is the
  identity on extended reals, so this array IS the first argument) and the labels twice, as a column [8192,1] and
  as a row [1,8192] (reshapes: the entry of either at row-major position n is the label n). The grid is 16 query
  blocks by 4 key blocks with the key block innermost, so point t has query block t / 4 and key block t mod 4.
  A window's block at point t sits at (block index) × (block size) + (coordinate inside the block) on each axis;
  the five index maps are decided once over the 64 points (`idx_facts`). Hence:

    window 0 (512 query rows of x)      entry (p, k) is x (⌊t/4⌋·512 + p, k)
    window 1 (2048 key rows of x)       entry (q, k) is x ((t mod 4)·2048 + q, k)
    window 2 (label column, 512 rows)   entry (p, 0) is label (⌊t/4⌋·512 + p)
    window 3 (label row, 2048 columns)  entry (0, q) is label ((t mod 4)·2048 + q)
    window 4 (the result, 512 rows)     entry (p, d) sits at (⌊t/4⌋·512 + p, d) of the result array,

  and the result's blocks at the points that write back (t mod 4 = 3) cover the whole result array: the index
  (r, d) lies in the block of the point ⌊r/512⌋·4 + 3.
-/
import proofs.«134597_j4166118277821_2_alg».proof.Proof.IdealEntry
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Flash.Blocks

open Cert.KernelIdeal Cert.KernelIdeal.Gen Cert.KernelIdeal.Flash
open Idealize.ShloMosaic Idealize.ShloMosaic.TcCoe Idealize.ShloMosaic.ValueIdx Idealize.ShloMosaic.Tactic
open Idealize.SL.Sem

variable (m : (ℓ : Loc nD τ sig) → Buf (Elt Idealize.ShloMosaic.Ideal) ℓ) (c : Dev nD)

/-! ## The rows a grid point works on -/

/-- The grid has 64 points. -/
theorem t_lt (t : Fin cfg0.N) : t.val < 64 := lt_of_lt_of_eq t.isLt N_0

/-- Row `p` of point `t`'s query block, as a row of the whole array: query block `t / 4`, 512 rows each. -/
def qrow (t : Fin cfg0.N) (p : Fin 512) : Fin 8192 :=
  ⟨(t.val / 4) * 512 + p.val, by have := t_lt t; have := p.isLt; omega⟩
/-- Row `q` of point `t`'s key block, as a row of the whole array: key block `t mod 4`, 2048 rows each. -/
def krow (t : Fin cfg0.N) (q : Fin 2048) : Fin 8192 :=
  ⟨(t.val % 4) * 2048 + q.val, by have := t_lt t; have := q.isLt; omega⟩

@[simp] theorem qrow_val (t : Fin cfg0.N) (p : Fin 512) : (qrow t p).val = (t.val / 4) * 512 + p.val := rfl
@[simp] theorem krow_val (t : Fin cfg0.N) (q : Fin 2048) : (krow t q).val = (t.val % 4) * 2048 + q.val := rfl

/-! ## The arrays @main writes before the region -/

/-- x in the narrow format is x: narrowing an extended real is the identity. -/
theorem V_v0 : (V m c main_v0 : S8192x1024.Idx → EReal) = (m ((c : Thread nD τ).loc main_arg0) : S8192x1024.Idx → EReal) := by
  dsimp only [V]
  simp only [hostOps0, List.flatten_cons, List.flatten_nil, List.append_nil]
  after_results
  rfl

/-- The label column is the labels reshaped to [8192, 1]. -/
theorem V_v1 : (V m c main_v1 : S8192x1.Idx → BitVec 32)
    = shapeCast S8192x1 (m ((c : Thread nD τ).loc main_arg1) : S8192.Idx → BitVec 32) shapeCasts_S8192_S8192x1 := by
  dsimp only [V]
  simp only [hostOps0, List.flatten_cons, List.flatten_nil, List.append_nil]
  after_results
  rfl

/-- The label row is the labels reshaped to [1, 8192]. -/
theorem V_v2 : (V m c main_v2 : S1x8192.Idx → BitVec 32)
    = shapeCast S1x8192 (m ((c : Thread nD τ).loc main_arg1) : S8192.Idx → BitVec 32) shapeCasts_S8192_S1x8192 := by
  dsimp only [V]
  simp only [hostOps0, List.flatten_cons, List.flatten_nil, List.append_nil]
  after_results
  rfl

/-! ## The index maps, decided over the grid -/

/-- At point `t` the query-side windows (0, 2 and the result 4) are on block `t / 4` of their row axis, the key-side
    windows (1, 3) on block `t mod 4`; every other block index is 0. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-! ## The input windows' blocks -/

/-- Window 0's block at point `t`, at any index: row `j 0` of query block `t / 4` of x. -/
theorem blk0_idx (t : Fin cfg0.N) (j : S512x1024.Idx) :
    (iblk m c 0 t j : EReal) = (m ((c : Thread nD τ).loc main_arg0) : S8192x1024.Idx → EReal) (ix2 (qrow t (j 0)) (j 1)) := by
  obtain ⟨e0, e1, -⟩ := idx_facts t
  show (V m c main_v0 : S8192x1024.Idx → EReal) (((cfg0.win 0).blk t).view.emb j) = _
  rw [V_v0]
  refine congrArg _ (funext fun a => Fin.ext ?_)
  match a with
  | ⟨0, _⟩ => show win0_0.index t (0 : Fin 2) * 512 + 1 * (j 0).val = (t.val / 4) * 512 + (j 0).val; omega
  | ⟨1, _⟩ => show win0_0.index t (1 : Fin 2) * 1024 + 1 * (j 1).val = (j 1).val; omega

/-- THE QUERY ROWS of point `t`: entry `(p, k)` of window 0's block is x at row `qrow t p`, column `k`. -/
theorem blk0_at (t : Fin cfg0.N) (p : Fin 512) (k : Fin 1024) :
    (iblk m c 0 t (ix2 p k) : EReal) = (m ((c : Thread nD τ).loc main_arg0) : S8192x1024.Idx → EReal) (ix2 (qrow t p) k) :=
  blk0_idx m c t (ix2 p k)

/-- Window 1's block at point `t`, at any index: row `j 0` of key block `t mod 4` of x. -/
theorem blk1_idx (t : Fin cfg0.N) (j : S2048x1024.Idx) :
    (iblk m c 1 t j : EReal) = (m ((c : Thread nD τ).loc main_arg0) : S8192x1024.Idx → EReal) (ix2 (krow t (j 0)) (j 1)) := by
  obtain ⟨-, -, e0, e1, -⟩ := idx_facts t
  show (V m c main_v0 : S8192x1024.Idx → EReal) (((cfg0.win 1).blk t).view.emb j) = _
  rw [V_v0]
  refine congrArg _ (funext fun a => Fin.ext ?_)
  match a with
  | ⟨0, _⟩ => show win0_1.index t (0 : Fin 2) * 2048 + 1 * (j 0).val = (t.val % 4) * 2048 + (j 0).val; omega
  | ⟨1, _⟩ => show win0_1.index t (1 : Fin 2) * 1024 + 1 * (j 1).val = (j 1).val; omega

/-- THE KEY ROWS of point `t`: entry `(q, k)` of window 1's block is x at row `krow t q`, column `k`. -/
theorem blk1_at (t : Fin cfg0.N) (q : Fin 2048) (k : Fin 1024) :
    (iblk m c 1 t (ix2 q k) : EReal) = (m ((c : Thread nD τ).loc main_arg0) : S8192x1024.Idx → EReal) (ix2 (krow t q) k) :=
  blk1_idx m c t (ix2 q k)

/-- THE QUERY LABELS of point `t`: entry `(p, 0)` of window 2's block is the label of row `qrow t p`
    (the column's entry at `(r, 0)` has row-major position `r`). -/
theorem blk2_at (t : Fin cfg0.N) (p : Fin 512) :
    (iblk m c 2 t (ix2 p (0 : Fin 1)) : BitVec 32) = (m ((c : Thread nD τ).loc main_arg1) : S8192.Idx → BitVec 32) (ix1 (qrow t p)) := by
  obtain ⟨-, -, -, -, e0, e1, -⟩ := idx_facts t
  show (V m c main_v1 : S8192x1.Idx → BitVec 32) (((cfg0.win 2).blk t).view.emb (ix2 p (0 : Fin 1))) = _
  rw [V_v1]
  refine shapeCast_apply _ _ _ _ ?_
  rw [Shape.rowMajor_val_two]
  refine (Shape.rowMajor_val_one (d := ![8192]) (ix1 (qrow t p))).trans ?_
  show (t.val / 4) * 512 + p.val = (win0_2.index t (0 : Fin 2) * 512 + 1 * p.val) * 1 + (win0_2.index t (1 : Fin 2) * 1 + 1 * 0)
  omega

/-- THE KEY LABELS of point `t`: entry `(0, q)` of window 3's block is the label of row `krow t q`
    (the row's entry at `(0, r)` has row-major position `r`). -/
theorem blk3_at (t : Fin cfg0.N) (q : Fin 2048) :
    (iblk m c 3 t (ix2 (0 : Fin 1) q) : BitVec 32) = (m ((c : Thread nD τ).loc main_arg1) : S8192.Idx → BitVec 32) (ix1 (krow t q)) := by
  obtain ⟨-, -, -, -, -, -, e0, e1, -⟩ := idx_facts t
  show (V m c main_v2 : S1x8192.Idx → BitVec 32) (((cfg0.win 3).blk t).view.emb (ix2 (0 : Fin 1) q)) = _
  rw [V_v2]
  refine shapeCast_apply _ _ _ _ ?_
  rw [Shape.rowMajor_val_two]
  refine (Shape.rowMajor_val_one (d := ![8192]) (ix1 (krow t q))).trans ?_
  show (t.val % 4) * 2048 + q.val = (win0_3.index t (0 : Fin 2) * 1 + 1 * 0) * 8192 + (win0_3.index t (1 : Fin 2) * 2048 + 1 * q.val)
  omega

/-! ## The result window -/

/-- Where entry `j` of the result's block at point `t` sits in the result array: row `qrow t (j 0)`, column `j 1`. -/
theorem out_emb_idx (t : Fin cfg0.N) (j : S512x1024.Idx) :
    (((cfg0.win 4).blk t).view.emb j : S8192x1024.Idx) = ix2 (qrow t (j 0)) (j 1) := by
  obtain ⟨-, -, -, -, -, -, -, -, e0, e1⟩ := idx_facts t
  funext a; apply Fin.ext
  match a with
  | ⟨0, _⟩ => show win0_4.index t (0 : Fin 2) * 512 + 1 * (j 0).val = (t.val / 4) * 512 + (j 0).val; omega
  | ⟨1, _⟩ => show win0_4.index t (1 : Fin 2) * 1024 + 1 * (j 1).val = (j 1).val; omega

/-- Entry `(p, d)` of the result's block at point `t` sits at `(qrow t p, d)`. -/
theorem out_emb (t : Fin cfg0.N) (p : Fin 512) (d : Fin 1024) :
    (((cfg0.win 4).blk t).view.emb (ix2 p d) : S8192x1024.Idx) = ix2 (qrow t p) d :=
  out_emb_idx t (ix2 p d)

/-- A whole-array function read through the result's block at point `t` is its restriction to the rows of query
    block `t / 4`. -/
theorem out_read (t : Fin cfg0.N) (Gf : S8192x1024.Idx → EReal) :
    (((cfg0.win 4).blk t).view.read (Elt Idealize.ShloMosaic.Ideal) Gf : S512x1024.Idx → EReal)
      = fun j => Gf (ix2 (qrow t (j 0)) (j 1)) := by
  funext j
  exact congrArg Gf (out_emb_idx t j)

/-- The same at one entry. -/
theorem out_read_at (t : Fin cfg0.N) (Gf : S8192x1024.Idx → EReal) (p : Fin 512) (d : Fin 1024) :
    (((cfg0.win 4).blk t).view.read (Elt Idealize.ShloMosaic.Ideal) Gf : S512x1024.Idx → EReal) (ix2 p d)
      = Gf (ix2 (qrow t p) d) :=
  congrArg Gf (out_emb t p d)

/-- An index of the result array is in point `t`'s block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v3).slice (win0_4.rect t)).set ↔ _
  rw [View.set_slice_whole, Rect.mem_set_unit]
  exact Iff.rfl

/-- THE BLOCKS WRITTEN BACK COVER THE RESULT: the index `(r, d)` lies in the block of the point `⌊r/512⌋·4 + 3`,
    the last key block of `r`'s query block, where the result is written back. -/
theorem out_cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 512 * 4 + 3, lt_of_lt_of_eq (by omega : (i 0).val / 512 * 4 + 3 < 64) N_0.symm⟩
  have ht : t.val = (i 0).val / 512 * 4 + 3 := rfl
  obtain ⟨-, -, -, -, -, -, -, -, e0, e1⟩ := idx_facts t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

end Cert.KernelIdeal.Flash.Blocks

end
-- ==== Proof.AttnSpec.lean ====
/-
  The function both programs compute, over the extended reals, index by index.

  For x : [8192, 1024] and integer labels doc : [8192], row r of the result is the softmax-weighted mean of
  the rows of x, the weights taken over the scores  s(r, c) = (Σ_k x(r,k)·x(c,k)) / 32 + [doc r = doc c]:
      out(r, d) = Σ_c  exp(s(r,c) − M r) / (Σ_c' exp(s(r,c') − M r))  ·  x(c, d),      M r = max_c s(r, c),
  the maximum a fold of max from −∞ (so it is defined, and equal to the largest score, for every input).
  Nothing here assumes the entries finite; the laws that need finiteness are stated where they are used.
-/
import Idealize.ShloMosaic.PureOps.Ideal
import Idealize.ShloMosaic.Lib.ValueIdx

noncomputable section

namespace Cert.Attn

open Idealize.ShloMosaic Idealize.ShloMosaic.ValueIdx

/-- The shapes of the two arguments. -/
abbrev SX : Shape := ⟨2, ![8192, 1024]⟩
abbrev SD : Shape := ⟨1, ![8192]⟩

/-- 1/32 = 1/√1024, the scale of the scores. -/
def scale : EReal := ((1 / 32 : ℝ) : EReal)

/-- The additive same-label bias: 1 when the two labels agree, 0 otherwise. -/
def bias (a b : BitVec 32) : EReal := if a = b then 1 else 0

/-- The score of key row c for query row r. -/
def score (X : SX.Idx → EReal) (D : SD.Idx → BitVec 32) (r c : Fin 8192) : EReal :=
  (∑ k : Fin 1024, X (ix2 r k) * X (ix2 c k)) * scale + bias (D (ix1 r)) (D (ix1 c))

/-- The largest score of row r, as a fold of max from −∞ over all key rows. -/
def rowMax (X : SX.Idx → EReal) (D : SD.Idx → BitVec 32) (r : Fin 8192) : EReal :=
  Finset.univ.fold max (⊥ : EReal) (fun c : Fin 8192 => score X D r c)

/-- The unnormalised weight of key row c for query row r. -/
def weight (X : SX.Idx → EReal) (D : SD.Idx → BitVec 32) (r c : Fin 8192) : EReal :=
  Ideal.exp (score X D r c - rowMax X D r)

/-- The normaliser of row r. -/
def denom (X : SX.Idx → EReal) (D : SD.Idx → BitVec 32) (r : Fin 8192) : EReal :=
  ∑ c : Fin 8192, weight X D r c

/-- The result at (r, d): the weighted mean of column d of x under row r's softmax weights. -/
def G (X : SX.Idx → EReal) (D : SD.Idx → BitVec 32) (i : SX.Idx) : EReal :=
  ∑ c : Fin 8192, Ideal.div (weight X D (i 0) c) (denom X D (i 0)) * X (ix2 c (i 1))

end Cert.Attn

end
-- ==== Proof.PayloadAt.lean ====
/-
  The payloads of the attention kernel's body read at an index, at the ideal instance (a float an
  extended real, every operation its textbook one).

  For one block of 512 query rows and 2048 key rows the body computes the scores
      s(p, q) = (Σ_k x(p,k)·y(q,k)) / 32 + [label p = label q],
  the new running maximum  m'(p) = max (m(p), max_q s(p,q))  (the inner maximum a fold from −∞),
  the correction factor  c(p) = exp (m(p) − m'(p)),  the weights  w(p,q) = exp (s(p,q) − m'(p)),
  the new running normaliser  l'(p) = c(p)·l(p) + Σ_q w(p,q),  the new accumulator
  a'(p,d) = c(p)·a(p,d) + Σ_q w(p,q)·y(q,d),  and at the last block the quotient a(p,d) / l(p).
  Each lemma below states one of these at explicit coordinates, over variables for the loaded blocks.
-/
import proofs.«134597_j4166118277821_2_alg».proof.Proof.Gen.KernelIdeal.Skeleton
import proofs.«134597_j4166118277821_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Pay

open Cert.KernelIdeal Cert.KernelIdeal.Gen Idealize.ShloMosaic Idealize.ShloMosaic.ValueIdx

/-! ## Layout operations of the keepdims column forms, read at coordinates -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two matrix products, read at coordinates -/

theorem pv_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem pv_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem pv_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem pv_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The product of a `[512, 2048]` block with a `[2048, 1024]` block into a zero accumulator,
    read at `(p, d)`: the sum over the contracted coordinate. -/
theorem matmul_pv_apply (l : FVec Ideal S512x2048 .bf16) (r : FVec Ideal S2048x1024 .bf16) (p : Fin 512) (d : Fin 1024) :
    matmul dot_S512x2048_S2048x1024_S512x1024_1_0_0_1_n_n none l r
        (constant (F := Ideal) S512x1024 .f32 0x00000000#32) (ix2 p d)
      = ∑ q : Fin 2048, l (ix2 p q) * r (ix2 q d) := by
  simp only [matmul]
  rw [Ideal.matmul_constant_zero_apply,
    ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p d)
      ((contrEquiv1 dot_S512x2048_S2048x1024_S512x1024_1_0_0_1_n_n 2048 rfl rfl).symm k) = ix2 p k :=
    funext fun a => Fin.ext (by
      match a with
      | ⟨0, _⟩ => exact pv_lhs_0 _ _
      | ⟨1, _⟩ => exact (pv_lhs_1 _ _).trans hk)
  have er : dot_S512x2048_S2048x1024_S512x1024_1_0_0_1_n_n.rhsIdx (ix2 p d)
      ((contrEquiv1 dot_S512x2048_S2048x1024_S512x1024_1_0_0_1_n_n 2048 rfl rfl).symm k) = ix2 k d :=
    funext fun a => Fin.ext (by
      match a with
      | ⟨0, _⟩ => exact (pv_rhs_0 _ _).trans hk
      | ⟨1, _⟩ => exact pv_rhs_1 _ _)
  rw [el, er]

theorem qk_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem qk_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem qk_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem qk_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The product of a `[512, 1024]` block with the transpose of a `[2048, 1024]` block (both last axes
    contracted) into a zero accumulator, read at `(p, q)`: the inner product of row `p` and row `q`. -/
theorem matmul_qk_apply (l : FVec Ideal S512x1024 .bf16) (r : FVec Ideal S2048x1024 .bf16) (p : Fin 512) (q : Fin 2048) :
    matmul dot_S512x1024_S2048x1024_S512x2048_1_1_0_0_n_n none l r
        (constant (F := Ideal) S512x2048 .f32 0x00000000#32) (ix2 p q)
      = ∑ k : Fin 1024, l (ix2 p k) * r (ix2 q k) := by
  simp only [matmul]
  rw [Ideal.matmul_constant_zero_apply,
    ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q)
      ((contrEquiv1 dot_S512x1024_S2048x1024_S512x2048_1_1_0_0_n_n 1024 rfl rfl).symm k) = ix2 p k :=
    funext fun a => Fin.ext (by
      match a with
      | ⟨0, _⟩ => exact qk_lhs_0 _ _
      | ⟨1, _⟩ => exact (qk_lhs_1 _ _).trans hk)
  have er : dot_S512x1024_S2048x1024_S512x2048_1_1_0_0_n_n.rhsIdx (ix2 p q)
      ((contrEquiv1 dot_S512x1024_S2048x1024_S512x2048_1_1_0_0_n_n 1024 rfl rfl).symm k) = ix2 q k :=
    funext fun a => Fin.ext (by
      match a with
      | ⟨0, _⟩ => exact qk_rhs_0 _ _
      | ⟨1, _⟩ => exact (qk_rhs_1 _ _).trans hk)
  rw [el, er]

/-! ## The scalars of the score -/

/-- The word `0x3D000000` is `2⁻⁵ = 1/32`. -/
theorem ofBits_scale : Ideal.ofBits .f32 0x3D000000#32 = Cert.Attn.scale := by
  unfold Cert.Attn.scale
  simp [Ideal.ofBits, Ideal.ieee]
  rw [← EReal.coe_mul]
  exact congrArg Real.toEReal (by norm_num)

/-- The word `0xFF800000` is `−∞`. -/
theorem ofBits_neg_inf : Ideal.ofBits .f32 0xFF800000#32 = (⊥ : EReal) := by
  simp [Ideal.ofBits, Ideal.ieee]

/-- A comparison's bit, zero-extended and read as a signed integer, is `1` or `0`. -/
theorem sitofp_extui_cmpi_eq (a b : BitVec 32) :
    (FloatOps.sitofp (F := Ideal) .f32 ((IntOp.cmpi .eq a b).setWidth 32) : EReal) = Cert.Attn.bias a b := by
  unfold Cert.Attn.bias
  by_cases h : a = b
  · subst h
    have hb : (a == a) = true := by simp
    have h1 : BitVec.toInt ((BitVec.ofBool true).setWidth 32) = 1 := by decide
    rw [if_pos rfl]
    show (((BitVec.toInt ((BitVec.ofBool (a == a)).setWidth 32) : ℤ) : ℝ) : EReal) = 1
    rw [hb, h1]
    simp
  · have hb : (a == b) = false := by simpa using h
    have h0 : BitVec.toInt ((BitVec.ofBool false).setWidth 32) = 0 := by decide
    rw [if_neg h]
    show (((BitVec.toInt ((BitVec.ofBool (a == b)).setWidth 32) : ℤ) : ℝ) : EReal) = 0
    rw [hb, h0]
    simp

/-! ## The two lane reductions of a `[512, 2048]` block, read at a row -/

/-- The inserted index of row `p` and lane `q` is `(p, q)`. -/
theorem lift_row (p : Fin 512) (q : Fin 2048) :
    reduces_S512x2048_S512.lift (ix1 p) q = ix2 p q :=
  funext fun a => Fin.ext (by match a with | ⟨0, _⟩ => rfl | ⟨1, _⟩ => rfl)

/-- The row maximum from `−∞`: the fold of `max` from `⊥` over the row's lanes. -/
theorem rowMax_apply (src : FVec Ideal S512x2048 .f32) (hφ : FKind.Formats .f32)
    (hacc : (0xFF800000#32 : BitVec FTy.f32.bits) = FKind.maximumf.neutral .f32 hφ) (p : Fin 512) :
    multiReduction (F := Ideal) .maximumf [1] S512 src 0xFF800000#32 reduces_S512x2048_S512 hφ hacc (ix1 p)
      = Finset.univ.fold max (⊥ : EReal) fun q : Fin 2048 => src (ix2 p q) := by
  refine (Ideal.multiReduction_maximumf_single src _ reduces_S512x2048_S512 hφ hacc (ix1 p)).trans ?_
  rw [Ideal.ofBits_def, ofBits_neg_inf]
  refine congrArg (Finset.univ.fold max (⊥ : EReal)) (funext fun q => ?_)
  exact congrArg src (lift_row p q)

/-- The row sum from zero: the sum over the row's lanes. -/
theorem rowSum_apply (src : FVec Ideal S512x2048 .f32) (hφ : FKind.Formats .f32)
    (hacc : (0x00000000#32 : BitVec FTy.f32.bits) = FKind.add.neutral .f32 hφ) (p : Fin 512) :
    multiReduction (F := Ideal) .add [1] S512 src 0x00000000#32 reduces_S512x2048_S512 hφ hacc (ix1 p)
      = ∑ q : Fin 2048, src (ix2 p q) := by
  refine (Ideal.multiReduction_add_single src _ reduces_S512x2048_S512 hφ hacc (ix1 p)).trans ?_
  refine Finset.sum_congr rfl fun q _ => ?_
  exact congrArg src (lift_row p q)

/-! ## The payloads at coordinates -/

/-- The scores of the block: the inner products of the query and key rows, scaled by 1/32, plus the
    same-label bias. -/
theorem pay8_at (v3 : Vec Ideal S512x1024 .bf16) (v5 : Vec Ideal S2048x1024 .bf16) (v10 : Vec Ideal S512x1 .i32)
    (v12 : Vec Ideal S1x2048 .i32) (p : Fin 512) (q : Fin 2048) :
    k0_pay8 (F := Ideal) v3 v5 v10 v12 (ix2 p q)
      = (∑ k : Fin 1024, v3 (ix2 p k) * v5 (ix2 q k)) * Cert.Attn.scale
        + Cert.Attn.bias (v10 (ix2 p 0)) (v12 (ix2 0 q)) := by
  unfold k0_pay8 k0_pay7
  rw [addf_apply, mulf_apply, matmul_qk_apply, shapeCast_self, shapeCast_self, shapeCast_self, shapeCast_self,
    broadcast_apply, sitofp_apply, extui_apply]
  show _ * Ideal.ofBits .f32 0x3D000000#32
      + FloatOps.sitofp (F := Ideal) .f32 ((IntOp.cmpi .eq (broadcastTo S512x2048 v10 broadcasts_S512x1_S512x2048 (ix2 p q))
          (broadcastTo S512x2048 v12 broadcasts_S1x2048_S512x2048 (ix2 p q))).setWidth 32) = _
  rw [ofBits_scale, broadcastTo_a1_ab_apply, broadcastTo_1b_ab_apply, sitofp_extui_cmpi_eq]

/-- The running maximum: the larger of the stored maximum and the block's row maximum. -/
theorem pay9_at (v3 : Vec Ideal S512x1024 .bf16) (v5 : Vec Ideal S2048x1024 .bf16) (v10 : Vec Ideal S512x1 .i32)
    (v12 : Vec Ideal S1x2048 .i32) (v20 : Vec Ideal S512x1 .f32) (p : Fin 512) :
    k0_pay9 (F := Ideal) v3 v5 v10 v12 v20 (ix2 p 0)
      = max (v20 (ix2 p 0))
          (Finset.univ.fold max (⊥ : EReal) fun q : Fin 2048 => k0_pay8 (F := Ideal) v3 v5 v10 v12 (ix2 p q)) := by
  unfold k0_pay9
  rw [maximumf_apply, shapeCast_a_a1_apply]
  exact congrArg (max _) (rowMax_apply _ _ _ p)

/-- The correction factor of the stored statistics: the exponential of the old maximum minus the new. -/
theorem pay10_at (v3 : Vec Ideal S512x1024 .bf16) (v5 : Vec Ideal S2048x1024 .bf16) (v10 : Vec Ideal S512x1 .i32)
    (v12 : Vec Ideal S1x2048 .i32) (v20 : Vec Ideal S512x1 .f32) (p : Fin 512) :
    k0_pay10 (F := Ideal) v3 v5 v10 v12 v20 (ix2 p 0)
      = Ideal.exp (v20 (ix2 p 0) - k0_pay9 (F := Ideal) v3 v5 v10 v12 v20 (ix2 p 0)) := by
  unfold k0_pay10
  rfl

/-- The block's weights: the exponential of each score minus its row's new maximum (the column of
    maxima broadcast along the row). -/
theorem pay11_at (v3 : Vec Ideal S512x1024 .bf16) (v5 : Vec Ideal S2048x1024 .bf16) (v10 : Vec Ideal S512x1 .i32)
    (v12 : Vec Ideal S1x2048 .i32) (v20 : Vec Ideal S512x1 .f32) (p : Fin 512) (q : Fin 2048) :
    k0_pay11 (F := Ideal) v3 v5 v10 v12 v20 (ix2 p q)
      = Ideal.exp (k0_pay8 (F := Ideal) v3 v5 v10 v12 (ix2 p q)
          - k0_pay9 (F := Ideal) v3 v5 v10 v12 v20 (ix2 p 0)) := by
  unfold k0_pay11
  show Ideal.exp (k0_pay8 (F := Ideal) v3 v5 v10 v12 (ix2 p q)
      - broadcastTo S512x2048 (k0_pay9 (F := Ideal) v3 v5 v10 v12 v20) broadcasts_S512x1_S512x2048 (ix2 p q)) = _
  rw [broadcastTo_a1_ab_apply]

/-- The running normaliser: the stored one rescaled by the correction factor, plus the row sum of the
    block's weights. -/
theorem pay12_at (v3 : Vec Ideal S512x1024 .bf16) (v5 : Vec Ideal S2048x1024 .bf16) (v10 : Vec Ideal S512x1 .i32)
    (v12 : Vec Ideal S1x2048 .i32) (v20 : Vec Ideal S512x1 .f32) (v29 : Vec Ideal S512x1 .f32) (p : Fin 512) :
    k0_pay12 (F := Ideal) v3 v5 v10 v12 v20 v29 (ix2 p 0)
      = k0_pay10 (F := Ideal) v3 v5 v10 v12 v20 (ix2 p 0) * v29 (ix2 p 0)
        + ∑ q : Fin 2048, k0_pay11 (F := Ideal) v3 v5 v10 v12 v20 (ix2 p q) := by
  unfold k0_pay12
  rw [shapeCast_self, addf_apply, mulf_apply, shapeCast_a_a1_apply]
  exact congrArg (_ + ·) (rowSum_apply _ _ _ p)

/-- A cast to the same shape is the identity. -/
theorem pay2_eq (v23 : FVec Ideal S512x1 .f32) : k0_pay2 (F := Ideal) v23 = v23 :=
  shapeCast_self _ _

theorem pay7_eq (v5 : Vec Ideal S2048x1024 .bf16) : k0_pay7 (F := Ideal) v5 = v5 :=
  shapeCast_self _ _

/-- The initial maximum is `−∞`. -/
theorem pay4_at (p : Fin 512) : k0_pay4 (F := Ideal) (ix2 p 0) = (⊥ : EReal) := by
  unfold k0_pay4
  rw [shapeCast_self, broadcast_apply]
  exact ofBits_neg_inf

/-- The initial normaliser is zero. -/
theorem pay5_at (p : Fin 512) : k0_pay5 (F := Ideal) (ix2 p 0) = (0 : EReal) := by
  unfold k0_pay5
  rw [shapeCast_self, broadcast_apply]
  exact Ideal.ofBits_zero_f32

/-- The initial accumulator is zero. -/
theorem pay6_at (p : Fin 512) (d : Fin 1024) : k0_pay6 (F := Ideal) (ix2 p d) = (0 : EReal) := by
  unfold k0_pay6
  rw [shapeCast_self, broadcast_apply]
  exact Ideal.ofBits_zero_f32

/-- The accumulator's update: the old accumulator rescaled by the row's correction factor, plus the
    weights times the value block. A narrowing of the weights is the identity on extended reals. -/
theorem pay1_at (v6 : FVec Ideal S2048x1024 .bf16) (v25 : FVec Ideal S512x1 .f32) (v28 : FVec Ideal S512x2048 .f32)
    (v37 : Vec Ideal S512x1024 .f32) (p : Fin 512) (d : Fin 1024) :
    k0_pay1 (F := Ideal) v6 v25 v28 v37 (ix2 p d)
      = v25 (ix2 p 0) * v37 (ix2 p d) + ∑ q : Fin 2048, v28 (ix2 p q) * v6 (ix2 q d) := by
  unfold k0_pay1
  rw [shapeCast_self, addf_apply, mulf_apply, broadcastTo_a1_ab_apply, matmul_pv_apply]
  rfl

/-- The final normalisation: each accumulated entry divided by its row's normaliser. -/
theorem pay3_at (v52 : Vec Ideal S512x1024 .f32) (v53 : Vec Ideal S512x1 .f32) (p : Fin 512) (d : Fin 1024) :
    k0_pay3 (F := Ideal) v52 v53 (ix2 p d) = Ideal.div (v52 (ix2 p d)) (v53 (ix2 p 0)) := by
  unfold k0_pay3
  rw [divf_apply, broadcastTo_a1_ab_apply]

end Cert.Attn.Pay

end
-- ==== Proof.LibOnlineSoftmax.lean ====
import Mathlib
import Idealize.ShloMosaic.PureOps.Ideal

/-!
# The online-softmax law on the extended reals

A softmax-weighted sum over a finite index set can be accumulated block by block while
keeping only three running quantities: the maximum score seen so far, the sum of the
exponentials of the scores shifted by that maximum, and the same sum weighted by a column of
multipliers. When a new block arrives the maximum is raised and the two sums are rescaled by
the exponential of (old maximum − new maximum). This file proves, on the extended reals with
the ideal exponential (`exp ⊥ = 0`) and the ideal division, that this update computes the
one-pass quantities over the union, starting from the state `(⊥, 0, 0)` of the empty set,
and that the final quotient is the softmax-weighted sum.

Scores are real numbers; the running maximum of the empty set is `⊥`, which is why the
statements live in `EReal`.
-/

noncomputable section

namespace Cert.LibOnlineSoftmax

open Idealize.ShloMosaic

variable {ι : Type*} [DecidableEq ι]

/-- The running maximum of the scores `s` over `S`, as an extended real: `⊥` on the empty set. -/
def M (s : ι → ℝ) (S : Finset ι) : EReal :=
  S.fold max (⊥ : EReal) (fun c => (s c : EReal))

/-- The running weighted sum over `S` at reference point `m`:
    `∑ c ∈ S, exp (s c − m) · w c`. -/
def A (s w : ι → ℝ) (S : Finset ι) (m : EReal) : EReal :=
  ∑ c ∈ S, Ideal.exp ((s c : EReal) - m) * (w c : EReal)

/-- The running unweighted sum over `S` at reference point `m`: `∑ c ∈ S, exp (s c − m)`. -/
def L (s : ι → ℝ) (S : Finset ι) (m : EReal) : EReal :=
  ∑ c ∈ S, Ideal.exp ((s c : EReal) - m)

/-! ### The running maximum -/

/-- The running maximum is the finite supremum of the (coerced) scores. -/
theorem M_eq_sup (s : ι → ℝ) (S : Finset ι) :
    M s S = S.sup (fun c => (s c : EReal)) := rfl

/-- The running maximum of a union is the larger of the two running maxima. -/
theorem fold_union (s : ι → ℝ) (S T : Finset ι) :
    M s (S ∪ T) = max (M s S) (M s T) := by
  rw [M_eq_sup, M_eq_sup, M_eq_sup, Finset.sup_union]

/-- Every score of the set is at most the running maximum. -/
theorem M_ge (s : ι → ℝ) {S : Finset ι} {c : ι} (hc : c ∈ S) :
    (s c : EReal) ≤ M s S := by
  rw [M_eq_sup]
  exact Finset.le_sup (f := fun c => (s c : EReal)) hc

/-- On a nonempty set the running maximum is attained: it is the score of some member. -/
theorem M_attained (s : ι → ℝ) {S : Finset ι} (hS : S.Nonempty) :
    ∃ c ∈ S, M s S = (s c : EReal) := by
  obtain ⟨c, hc, h⟩ := Finset.exists_mem_eq_sup S hS (fun c => (s c : EReal))
  exact ⟨c, hc, by rw [M_eq_sup]; exact h⟩

/-- On a nonempty set the running maximum is a real number. -/
theorem M_real (s : ι → ℝ) {S : Finset ι} (hS : S.Nonempty) :
    ∃ r : ℝ, M s S = (r : EReal) := by
  obtain ⟨c, _, h⟩ := M_attained s hS
  exact ⟨s c, h⟩

/-! ### The initial state -/

/-- The running maximum of the empty set is `⊥`. -/
@[simp] theorem M_empty (s : ι → ℝ) : M s (∅ : Finset ι) = ⊥ := rfl

/-- The running weighted sum of the empty set is `0`, at every reference point. -/
@[simp] theorem A_empty (s w : ι → ℝ) (m : EReal) : A s w (∅ : Finset ι) m = 0 := by
  simp [A]

/-- The running unweighted sum of the empty set is `0`, at every reference point. -/
@[simp] theorem L_empty (s : ι → ℝ) (m : EReal) : L s (∅ : Finset ι) m = 0 := by
  simp [L]

/-- The unweighted sum is the weighted sum with every multiplier equal to `1`. -/
theorem L_eq_A_one (s : ι → ℝ) (S : Finset ι) (m : EReal) :
    L s S m = A s (fun _ => 1) S m := by
  unfold L A
  refine Finset.sum_congr rfl fun c _ => ?_
  rw [EReal.coe_one, mul_one]

/-! ### Real reference points: everything is a real number -/

/-- The coercion of a finite real sum is the finite sum of the coercions. -/
theorem coe_sum (f : ι → ℝ) (S : Finset ι) :
    ((∑ c ∈ S, f c : ℝ) : EReal) = ∑ c ∈ S, (f c : EReal) := by
  refine Finset.induction_on S (by simp) ?_
  intro a S ha ih
  rw [Finset.sum_insert ha, Finset.sum_insert ha, EReal.coe_add, ih]

/-- At a real reference point the weighted sum is (the coercion of) a real sum of real
    exponentials. -/
theorem A_coe (s w : ι → ℝ) (S : Finset ι) (m : ℝ) :
    A s w S (m : EReal) = ((∑ c ∈ S, Real.exp (s c - m) * w c : ℝ) : EReal) := by
  rw [coe_sum]
  refine Finset.sum_congr rfl fun c _ => ?_
  rw [← EReal.coe_sub, Ideal.exp_coe, EReal.coe_mul]

/-- At a real reference point the unweighted sum is (the coercion of) a real sum of real
    exponentials. -/
theorem L_coe (s : ι → ℝ) (S : Finset ι) (m : ℝ) :
    L s S (m : EReal) = ((∑ c ∈ S, Real.exp (s c - m) : ℝ) : EReal) := by
  rw [L_eq_A_one, A_coe]
  simp

/-- Moving the reference point between two reals rescales the weighted sum by the
    exponential of the difference: `exp (r − r') · ∑ exp (s c − r) w c = ∑ exp (s c − r') w c`. -/
theorem rebase (s w : ι → ℝ) (S : Finset ι) (r r' : ℝ) :
    Ideal.exp ((r : EReal) - (r' : EReal)) * A s w S (r : EReal) = A s w S (r' : EReal) := by
  rw [A_coe, A_coe, ← EReal.coe_sub, Ideal.exp_coe, ← EReal.coe_mul, Finset.mul_sum]
  congr 1
  refine Finset.sum_congr rfl fun c _ => ?_
  rw [← mul_assoc, ← Real.exp_add]
  congr 2
  ring

/-- Moving the reference point from the running maximum of `S` (which is `⊥` when `S` is
    empty) to any real rescales the weighted sum by the exponential of the difference. -/
theorem rebase_M (s w : ι → ℝ) (S : Finset ι) (r' : ℝ) :
    Ideal.exp (M s S - (r' : EReal)) * A s w S (M s S) = A s w S (r' : EReal) := by
  rcases S.eq_empty_or_nonempty with rfl | hS
  · rw [A_empty, A_empty, mul_zero]
  · obtain ⟨r, hr⟩ := M_real s hS
    rw [hr, rebase]

/-! ### The step -/

/-- **The online-softmax step, weighted sum.** For disjoint `S` and nonempty `T` (`S` may be
    empty), rescaling the old weighted sum by `exp (old maximum − new maximum)` and adding
    the new block's weighted sum at the new maximum gives the weighted sum of the union at
    its maximum. -/
theorem step_A (s w : ι → ℝ) {S T : Finset ι} (hST : Disjoint S T) (hT : T.Nonempty) :
    Ideal.exp (M s S - M s (S ∪ T)) * A s w S (M s S) + A s w T (M s (S ∪ T))
      = A s w (S ∪ T) (M s (S ∪ T)) := by
  obtain ⟨r', hr'⟩ := M_real s (S := S ∪ T) (hT.mono Finset.subset_union_right)
  rw [hr', rebase_M]
  unfold A
  rw [Finset.sum_union hST]

/-- **The online-softmax step in the form it is computed**: the new maximum is written
    `max (M S) (M T)` and the old accumulator is passed as a variable. -/
theorem step_A' (s w : ι → ℝ) {S T : Finset ι} (hST : Disjoint S T) (hT : T.Nonempty) :
    ∀ a : EReal, a = A s w S (M s S) →
      Ideal.exp (M s S - max (M s S) (M s T)) * a + A s w T (max (M s S) (M s T))
        = A s w (S ∪ T) (M s (S ∪ T)) := by
  intro a ha
  rw [ha, ← fold_union]
  exact step_A s w hST hT

/-- **The online-softmax step, unweighted sum**: the same update for the normaliser
    `∑ exp (s c − maximum)`. -/
theorem step_L (s : ι → ℝ) {S T : Finset ι} (hST : Disjoint S T) (hT : T.Nonempty) :
    Ideal.exp (M s S - max (M s S) (M s T)) * L s S (M s S) + L s T (max (M s S) (M s T))
      = L s (S ∪ T) (M s (S ∪ T)) := by
  rw [L_eq_A_one, L_eq_A_one, L_eq_A_one]
  exact step_A' s (fun _ => 1) hST hT _ rfl

/-- The unweighted step with the accumulator passed as a variable. -/
theorem step_L' (s : ι → ℝ) {S T : Finset ι} (hST : Disjoint S T) (hT : T.Nonempty) :
    ∀ l : EReal, l = L s S (M s S) →
      Ideal.exp (M s S - max (M s S) (M s T)) * l + L s T (max (M s S) (M s T))
        = L s (S ∪ T) (M s (S ∪ T)) := by
  intro l hl
  rw [hl]
  exact step_L s hST hT

/-! ### The quotient -/

/-- On a nonempty set the normaliser at the running maximum is a positive real: every term is
    a positive real exponential. -/
theorem L_pos (s : ι → ℝ) {S : Finset ι} (hS : S.Nonempty) :
    ∃ l : ℝ, 0 < l ∧ L s S (M s S) = (l : EReal) := by
  obtain ⟨r, hr⟩ := M_real s hS
  refine ⟨∑ c ∈ S, Real.exp (s c - r), Finset.sum_pos (fun c _ => Real.exp_pos _) hS, ?_⟩
  rw [hr, L_coe]

/-- On a nonempty set the normaliser at the running maximum is at least `1`: the maximal entry
    contributes `exp 0 = 1`. -/
theorem one_le_L (s : ι → ℝ) {S : Finset ι} (hS : S.Nonempty) :
    (1 : EReal) ≤ L s S (M s S) := by
  obtain ⟨c, hc, h⟩ := M_attained s hS
  rw [h, L_coe, ← EReal.coe_one, EReal.coe_le_coe_iff]
  calc (1 : ℝ) = Real.exp (s c - s c) := by rw [sub_self, Real.exp_zero]
    _ ≤ ∑ d ∈ S, Real.exp (s d - s c) :=
        Finset.single_le_sum (f := fun d => Real.exp (s d - s c))
          (fun d _ => (Real.exp_pos _).le) hc

/-- **The quotient.** On a nonempty set, the weighted sum divided by the normaliser (both at
    the running maximum) is the sum of the normalised exponentials times the multipliers:
    the softmax-weighted sum. -/
theorem quotient (s w : ι → ℝ) {S : Finset ι} (hS : S.Nonempty) :
    Ideal.div (A s w S (M s S)) (L s S (M s S))
      = ∑ c ∈ S, Ideal.div (Ideal.exp ((s c : EReal) - M s S)) (L s S (M s S)) * (w c : EReal) := by
  obtain ⟨l, hl, hL⟩ := L_pos s hS
  obtain ⟨r, hr⟩ := M_real s hS
  rw [hL, Ideal.div_coe hl.ne', hr, A_coe, ← EReal.coe_mul, Finset.sum_mul, coe_sum]
  refine Finset.sum_congr rfl fun c _ => ?_
  rw [Ideal.div_coe hl.ne', ← EReal.coe_sub, Ideal.exp_coe, ← EReal.coe_mul, ← EReal.coe_mul]
  congr 1
  ring

end Cert.LibOnlineSoftmax
-- ==== Proof.AttnOnline.lean ====
/-
  The bridge from the block-by-block (online) softmax update to the specification G, for
  real-valued inputs.

  The 8192 key rows are split into four consecutive blocks of 2048 rows. Three running
  quantities are kept per query row r (and output column d): the maximum score over the key
  rows seen so far, the sum of exp (score − that maximum), and the same sum weighted by
  column d of x. This file shows that the update which raises the maximum by the new block's
  maximum and rescales the two sums by exp (old maximum − new maximum) computes, block after
  block, exactly these three quantities over the key rows below (ki+1)·2048; that they start
  at (⊥, 0, 0); and that after the last block their quotient is the specification G.
-/
import Mathlib
import proofs.«134597_j4166118277821_2_alg».proof.Proof.AttnSpec
import proofs.«134597_j4166118277821_2_alg».proof.Proof.LibOnlineSoftmax

noncomputable section

namespace Cert.Attn.Online

open Idealize.ShloMosaic Idealize.ShloMosaic.ValueIdx Cert.Attn Cert.LibOnlineSoftmax

/-- A real-valued input read as an extended-real-valued one. -/
abbrev toE (xr : SX.Idx → ℝ) : SX.Idx → EReal := fun i => (xr i : EReal)

/-- The score of key row c for query row r, as a real number. -/
def sr (xr : SX.Idx → ℝ) (D : SD.Idx → BitVec 32) (r c : Fin 8192) : ℝ :=
  (∑ k : Fin 1024, xr (ix2 r k) * xr (ix2 c k)) * (1 / 32)
    + (if D (ix1 r) = D (ix1 c) then 1 else 0)

/-- The key rows below n. -/
def cols (n : ℕ) : Finset (Fin 8192) := Finset.univ.filter (fun c => c.val < n)

/-- The q-th row of key block ki. -/
def krow (ki : Fin 4) (q : Fin 2048) : Fin 8192 := ⟨ki.val * 2048 + q.val, by omega⟩

/-- The running maximum of row r over the key rows below n. -/
def stM (xr : SX.Idx → ℝ) (D : SD.Idx → BitVec 32) (r : Fin 8192) (n : ℕ) : EReal :=
  M (sr xr D r) (cols n)

/-- The running normaliser of row r over the key rows below n, at the running maximum. -/
def stL (xr : SX.Idx → ℝ) (D : SD.Idx → BitVec 32) (r : Fin 8192) (n : ℕ) : EReal :=
  L (sr xr D r) (cols n) (stM xr D r n)

/-- The running weighted sum of row r and column d over the key rows below n, at the running
    maximum. -/
def stA (xr : SX.Idx → ℝ) (D : SD.Idx → BitVec 32) (r : Fin 8192) (d : Fin 1024) (n : ℕ) :
    EReal :=
  A (sr xr D r) (fun c => xr (ix2 c d)) (cols n) (stM xr D r n)

/-! ### The score of real inputs is a real number -/

/-- On real inputs the score is the coercion of the real score: the coercion passes through
    the finite sum, the products and the case split of the bias. -/
theorem score_coe (xr : SX.Idx → ℝ) (D : SD.Idx → BitVec 32) (r c : Fin 8192) :
    score (toE xr) D r c = ((sr xr D r c : ℝ) : EReal) := by
  have hsum : (∑ k : Fin 1024, toE xr (ix2 r k) * toE xr (ix2 c k))
      = ((∑ k : Fin 1024, xr (ix2 r k) * xr (ix2 c k) : ℝ) : EReal) := by
    rw [coe_sum]
    exact Finset.sum_congr rfl fun k _ => (EReal.coe_mul _ _).symm
  have hb : (if D (ix1 r) = D (ix1 c) then (1 : EReal) else 0)
      = ((if D (ix1 r) = D (ix1 c) then (1 : ℝ) else 0 : ℝ) : EReal) := by
    split_ifs <;> simp
  unfold score sr scale bias
  rw [hsum, hb, EReal.coe_add, EReal.coe_mul]

/-! ### The key rows, block by block -/

/-- Distinct positions of a block are distinct key rows. -/
theorem krow_injective (ki : Fin 4) : Function.Injective (krow ki) := by
  intro a b h
  have h' := congrArg Fin.val h
  simp only [krow] at h'
  exact Fin.ext (by omega)

/-- The rows of key block ki, as a finite set. -/
def blk (ki : Fin 4) : Finset (Fin 8192) := Finset.univ.map ⟨krow ki, krow_injective ki⟩

/-- The key rows below (ki+1)·2048 are those below ki·2048 together with block ki. -/
theorem cols_succ (ki : Fin 4) : cols ((ki.val + 1) * 2048) = cols (ki.val * 2048) ∪ blk ki := by
  ext c
  simp only [cols, blk, Finset.mem_filter, Finset.mem_univ, true_and, Finset.mem_union,
    Finset.mem_map, Function.Embedding.coeFn_mk]
  constructor
  · intro h
    by_cases hc : c.val < ki.val * 2048
    · exact Or.inl hc
    · refine Or.inr ⟨⟨c.val - ki.val * 2048, by omega⟩, ?_⟩
      apply Fin.ext
      simp only [krow]
      omega
  · rintro (h | ⟨q, rfl⟩)
    · omega
    · have := q.isLt
      simp only [krow]
      omega

/-- Block ki lies above the key rows below ki·2048. -/
theorem cols_disjoint (ki : Fin 4) : Disjoint (cols (ki.val * 2048)) (blk ki) := by
  rw [Finset.disjoint_left]
  intro c hc hc'
  simp only [cols, Finset.mem_filter, Finset.mem_univ, true_and] at hc
  simp only [blk, Finset.mem_map, Finset.mem_univ, true_and, Function.Embedding.coeFn_mk] at hc'
  obtain ⟨q, rfl⟩ := hc'
  simp only [krow] at hc
  omega

/-- A block is not empty. -/
theorem blk_nonempty (ki : Fin 4) : (blk ki).Nonempty :=
  ⟨krow ki 0, by simp [blk]⟩

/-- No key row lies below 0. -/
theorem cols_zero : cols 0 = ∅ := by
  ext c
  simp [cols]

/-- Every key row lies below 8192. -/
theorem cols_all : cols 8192 = Finset.univ := by
  ext c
  simp [cols]

/-- The running maximum over a block is the fold of max over its 2048 positions. -/
theorem M_blk (xr : SX.Idx → ℝ) (D : SD.Idx → BitVec 32) (r : Fin 8192) (ki : Fin 4) :
    M (sr xr D r) (blk ki)
      = Finset.univ.fold max (⊥ : EReal) fun q : Fin 2048 => score (toE xr) D r (krow ki q) := by
  unfold M blk
  rw [Finset.fold_map]
  congr 1
  funext q
  exact (score_coe xr D r (krow ki q)).symm

/-- The unweighted sum over a block is the sum over its 2048 positions. -/
theorem L_blk (xr : SX.Idx → ℝ) (D : SD.Idx → BitVec 32) (r : Fin 8192) (ki : Fin 4)
    (m : EReal) :
    L (sr xr D r) (blk ki) m
      = ∑ q : Fin 2048, Ideal.exp (score (toE xr) D r (krow ki q) - m) := by
  unfold L blk
  rw [Finset.sum_map]
  refine Finset.sum_congr rfl fun q _ => ?_
  rw [score_coe]
  rfl

/-- The weighted sum over a block is the sum over its 2048 positions. -/
theorem A_blk (xr : SX.Idx → ℝ) (D : SD.Idx → BitVec 32) (r : Fin 8192) (d : Fin 1024)
    (ki : Fin 4) (m : EReal) :
    A (sr xr D r) (fun c => xr (ix2 c d)) (blk ki) m
      = ∑ q : Fin 2048,
          Ideal.exp (score (toE xr) D r (krow ki q) - m) * toE xr (ix2 (krow ki q) d) := by
  unfold A blk
  rw [Finset.sum_map]
  refine Finset.sum_congr rfl fun q _ => ?_
  rw [score_coe]
  rfl

/-! ### The initial state -/

/-- Before any block the state is (⊥, 0, 0). -/
theorem init (xr : SX.Idx → ℝ) (D : SD.Idx → BitVec 32) (r : Fin 8192) (d : Fin 1024) :
    stM xr D r 0 = ⊥ ∧ stL xr D r 0 = 0 ∧ stA xr D r d 0 = 0 := by
  unfold stL stA stM
  rw [cols_zero]
  exact ⟨M_empty _, L_empty _ _, A_empty _ _ _⟩

/-! ### The step -/

/-- The new running maximum is the larger of the old one and the block's maximum. -/
theorem step_max (xr : SX.Idx → ℝ) (D : SD.Idx → BitVec 32) (r : Fin 8192) (ki : Fin 4) :
    max (stM xr D r (ki.val * 2048))
        (Finset.univ.fold max (⊥ : EReal) fun q : Fin 2048 => score (toE xr) D r (krow ki q))
      = stM xr D r ((ki.val + 1) * 2048) := by
  unfold stM
  rw [cols_succ, fold_union, M_blk]

/-- The new normaliser is the old one rescaled by exp (old maximum − new maximum) plus the
    block's exponentials at the new maximum. -/
theorem step_sum (xr : SX.Idx → ℝ) (D : SD.Idx → BitVec 32) (r : Fin 8192) (ki : Fin 4) :
    Ideal.exp (stM xr D r (ki.val * 2048) - stM xr D r ((ki.val + 1) * 2048))
          * stL xr D r (ki.val * 2048)
        + ∑ q : Fin 2048,
            Ideal.exp (score (toE xr) D r (krow ki q) - stM xr D r ((ki.val + 1) * 2048))
      = stL xr D r ((ki.val + 1) * 2048) := by
  have h := step_L (sr xr D r) (cols_disjoint ki) (blk_nonempty ki)
  rw [← fold_union, ← cols_succ, L_blk] at h
  unfold stL stM
  exact h

/-- The new weighted sum is the old one rescaled by exp (old maximum − new maximum) plus the
    block's weighted exponentials at the new maximum. -/
theorem step_acc (xr : SX.Idx → ℝ) (D : SD.Idx → BitVec 32) (r : Fin 8192) (d : Fin 1024)
    (ki : Fin 4) :
    Ideal.exp (stM xr D r (ki.val * 2048) - stM xr D r ((ki.val + 1) * 2048))
          * stA xr D r d (ki.val * 2048)
        + ∑ q : Fin 2048,
            Ideal.exp (score (toE xr) D r (krow ki q) - stM xr D r ((ki.val + 1) * 2048))
              * toE xr (ix2 (krow ki q) d)
      = stA xr D r d ((ki.val + 1) * 2048) := by
  have h := step_A' (sr xr D r) (fun c => xr (ix2 c d)) (cols_disjoint ki) (blk_nonempty ki) _ rfl
  rw [← fold_union, ← cols_succ, A_blk] at h
  unfold stA stM
  exact h

/-! ### The final quotient -/

/-- On real inputs the row maximum of the specification is the running maximum over all key
    rows. -/
theorem rowMax_eq (xr : SX.Idx → ℝ) (D : SD.Idx → BitVec 32) (r : Fin 8192) :
    rowMax (toE xr) D r = M (sr xr D r) Finset.univ := by
  unfold rowMax M
  congr 1
  funext c
  exact score_coe xr D r c

/-- On real inputs the weight of the specification is the exponential of the real score minus
    the running maximum over all key rows. -/
theorem weight_eq (xr : SX.Idx → ℝ) (D : SD.Idx → BitVec 32) (r c : Fin 8192) :
    weight (toE xr) D r c
      = Ideal.exp (((sr xr D r c : ℝ) : EReal) - M (sr xr D r) Finset.univ) := by
  unfold weight
  rw [score_coe, rowMax_eq]

/-- On real inputs the normaliser of the specification is the running normaliser over all key
    rows. -/
theorem denom_eq (xr : SX.Idx → ℝ) (D : SD.Idx → BitVec 32) (r : Fin 8192) :
    denom (toE xr) D r = L (sr xr D r) Finset.univ (M (sr xr D r) Finset.univ) := by
  unfold denom L
  exact Finset.sum_congr rfl fun c _ => weight_eq xr D r c

/-- After the last block the quotient of the weighted sum by the normaliser is the
    specification. -/
theorem final (xr : SX.Idx → ℝ) (D : SD.Idx → BitVec 32) (r : Fin 8192) (d : Fin 1024) :
    Ideal.div (stA xr D r d 8192) (stL xr D r 8192) = G (toE xr) D (ix2 r d) := by
  unfold stA stL stM
  rw [cols_all, quotient _ _ Finset.univ_nonempty]
  unfold G
  refine Finset.sum_congr rfl fun c _ => ?_
  show _ = Ideal.div (weight (toE xr) D r c) (denom (toE xr) D r) * toE xr (ix2 c d)
  rw [weight_eq, denom_eq]

end Cert.Attn.Online

end
-- ==== Proof.IdealUpdate.lean ====
/-
  One key block's update of the three running statistics, on real-valued inputs: given the blocks a grid point loads
  (512 query rows, 2048 key rows, their labels) and the statistics as the point before left them — the running
  maximum, normaliser and weighted sum over the key rows below this block —, the body's new statistics are those over
  the key rows up to and including this block, and its quotient is weighted sum over normaliser.
-/
import proofs.«134597_j4166118277821_2_alg».proof.Proof.PayloadAt
import proofs.«134597_j4166118277821_2_alg».proof.Proof.AttnOnline

noncomputable section

namespace Cert.Attn.Update

open Cert.KernelIdeal Cert.KernelIdeal.Gen Cert.Attn Cert.Attn.Pay Cert.Attn.Online
open Idealize.ShloMosaic Idealize.ShloMosaic.ValueIdx

variable (xr : SX.Idx → ℝ) (D : SD.Idx → BitVec 32) (ki : Fin 4) (row : Fin 512 → Fin 8192)
variable (x0 : Vec Ideal S512x1024 .bf16) (x1 : Vec Ideal S2048x1024 .bf16) (x2 : Vec Ideal S512x1 .i32) (x3 : Vec Ideal S1x2048 .i32)
variable (hx0 : ∀ (p : Fin 512) (k : Fin 1024), x0 (ix2 p k) = toE xr (ix2 (row p) k))
variable (hx1 : ∀ (q : Fin 2048) (k : Fin 1024), x1 (ix2 q k) = toE xr (ix2 (krow ki q) k))
variable (hx2 : ∀ p : Fin 512, x2 (ix2 p 0) = D (ix1 (row p)))
variable (hx3 : ∀ q : Fin 2048, x3 (ix2 0 q) = D (ix1 (krow ki q)))

include hx0 hx1 hx2 hx3

/-- The block of scores the point computes is the scores of its query rows against its key rows. -/
theorem pay8_score (p : Fin 512) (q : Fin 2048) :
    k0_pay8 x0 x1 x2 x3 (ix2 p q) = score (toE xr) D (row p) (krow ki q) := by
  rw [pay8_at]
  simp only [hx0, hx1, hx2, hx3]
  rfl

variable (xs0 : Vec Ideal S512x1 .f32) (xs1 : Vec Ideal S512x1 .f32) (xs2 : Vec Ideal S512x1024 .f32)
variable (h0 : ∀ p : Fin 512, xs0 (ix2 p 0) = stM xr D (row p) (ki.val * 2048))
variable (h1 : ∀ p : Fin 512, xs1 (ix2 p 0) = stL xr D (row p) (ki.val * 2048))
variable (h2 : ∀ (p : Fin 512) (d : Fin 1024), xs2 (ix2 p d) = stA xr D (row p) d (ki.val * 2048))

include h0 in
/-- The new running maximum. -/
theorem new_max (p : Fin 512) :
    k0_pay9 x0 x1 x2 x3 xs0 (ix2 p 0) = stM xr D (row p) ((ki.val + 1) * 2048) := by
  rw [pay9_at, h0]
  simp only [pay8_score xr D ki row x0 x1 x2 x3 hx0 hx1 hx2 hx3]
  exact step_max xr D (row p) ki

include h0 h1 in
/-- The new running normaliser. -/
theorem new_sum (p : Fin 512) :
    k0_pay12 x0 x1 x2 x3 xs0 xs1 (ix2 p 0) = stL xr D (row p) ((ki.val + 1) * 2048) := by
  rw [pay12_at, pay10_at, h1, h0]
  simp only [pay11_at, new_max xr D ki row x0 x1 x2 x3 hx0 hx1 hx2 hx3 xs0 h0, pay8_score xr D ki row x0 x1 x2 x3 hx0 hx1 hx2 hx3]
  exact step_sum xr D (row p) ki

include h0 h2 in
/-- The new running weighted sum. -/
theorem new_acc (p : Fin 512) (d : Fin 1024) :
    k0_pay1 (k0_pay7 x1) (k0_pay10 x0 x1 x2 x3 xs0) (k0_pay11 x0 x1 x2 x3 xs0) xs2 (ix2 p d) = stA xr D (row p) d ((ki.val + 1) * 2048) := by
  rw [pay1_at, pay10_at, h2, h0, pay7_eq]
  simp only [pay11_at, new_max xr D ki row x0 x1 x2 x3 hx0 hx1 hx2 hx3 xs0 h0, pay8_score xr D ki row x0 x1 x2 x3 hx0 hx1 hx2 hx3, hx1]
  exact step_acc xr D (row p) d ki

end Cert.Attn.Update

end
-- ==== Proof.IdealValue.lean ====
/-
  The attention kernel's region, part 4: what the result array ends holding, for real-valued x.

  By induction over the grid's points: after the point with query block b and key block j, row p of the running
  maximum, normaliser and weighted sum are the maximum, the normaliser and the weighted sum of row b·512 + p of the
  scores over the key rows below (j + 1)·2048 — a key block 0 starts from (−∞, 0, 0), any other from what the point
  before left. At key block 3 the key rows are all of them, and the block written back is the weighted sum over the
  normaliser: the specification's rows. The written blocks cover the result array.
-/
import proofs.«134597_j4166118277821_2_alg».proof.Proof.IdealPieces
import proofs.«134597_j4166118277821_2_alg».proof.Proof.IdealBlocks
import proofs.«134597_j4166118277821_2_alg».proof.Proof.IdealUpdate
import Idealize.ShloMosaic.Lib.Pipeline.Value

set_option maxRecDepth 16384

noncomputable section

namespace Cert.KernelIdeal.Flash.Value

open Cert.KernelIdeal Cert.KernelIdeal.Gen Cert.KernelIdeal.Flash Cert.KernelIdeal.Flash.Blocks
open Cert.Attn Cert.Attn.Pay Cert.Attn.Online
open Idealize.ShloMosaic Idealize.ShloMosaic.TcCoe Idealize.ShloMosaic.ValueIdx
open Idealize.SL.Sem
open Idealize.ShloMosaic.Pipeline (Dat)

variable (m : (ℓ : Loc nD τ sig) → Buf (Elt Idealize.ShloMosaic.Ideal) ℓ) (ρ : Dev nD → PrngReg) (c : Dev nD)

/-- The labels. -/
abbrev Dl : SD.Idx → BitVec 32 := (m ((c : Thread nD τ).loc main_arg1) : S8192.Idx → BitVec 32)

variable (xr : SX.Idx → ℝ)
variable (hx : ∀ i : S8192x1024.Idx, (m ((c : Thread nD τ).loc main_arg0) : S8192x1024.Idx → EReal) i = ((xr i : ℝ) : EReal))

/-- The key block of a point. -/
def kiOf (t : Fin cfg0.N) : Fin 4 := ⟨t.val % 4, Nat.mod_lt _ (by decide)⟩

theorem krow_eq (t : Fin cfg0.N) (q : Fin 2048) : Blocks.krow t q = Online.krow (kiOf t) q := Fin.ext rfl

/-! ## The blocks a point loads, on real-valued x -/

include hx in
theorem hx0 (t : Fin cfg0.N) (p : Fin 512) (k : Fin 1024) : (iblk m c 0 t (ix2 p k) : EReal) = toE xr (ix2 (qrow t p) k) :=
  (blk0_at m c t p k).trans (hx _)
include hx in
theorem hx1 (t : Fin cfg0.N) (q : Fin 2048) (k : Fin 1024) : (iblk m c 1 t (ix2 q k) : EReal) = toE xr (ix2 (Online.krow (kiOf t) q) k) := by
  rw [← krow_eq]; exact (blk1_at m c t q k).trans (hx _)
theorem hx2 (t : Fin cfg0.N) (p : Fin 512) : (iblk m c 2 t (ix2 p (0 : Fin 1)) : BitVec 32) = Dl m c (ix1 (qrow t p)) :=
  blk2_at m c t p
theorem hx3 (t : Fin cfg0.N) (q : Fin 2048) : (iblk m c 3 t (ix2 (0 : Fin 1) q) : BitVec 32) = Dl m c (ix1 (Online.krow (kiOf t) q)) := by
  rw [← krow_eq]; exact blk3_at m c t q

/-! ## The statistics after each point -/

/-- What holds of the three statistics after a point: they are those of the point's query rows over the key rows up
    to and including the point's key block. -/
def Good (t : Fin cfg0.N) (mx sm : Vec Idealize.ShloMosaic.Ideal S512x1 .f32) (ac : Vec Idealize.ShloMosaic.Ideal S512x1024 .f32) : Prop :=
  (∀ p : Fin 512, mx (ix2 p 0) = stM xr (Dl m c) (qrow t p) (((kiOf t).val + 1) * 2048))
  ∧ (∀ p : Fin 512, sm (ix2 p 0) = stL xr (Dl m c) (qrow t p) (((kiOf t).val + 1) * 2048))
  ∧ (∀ (p : Fin 512) (d : Fin 1024), ac (ix2 p d) = stA xr (Dl m c) (qrow t p) d (((kiOf t).val + 1) * 2048))

include hx in
/-- A point whose key block is 0 starts from the empty set of key rows. -/
theorem good_first (t : Fin cfg0.N) (h0 : t.val % 4 = 0) (h1 : ¬t.val % 4 = 3) :
    Good m c xr t (outsAt m c t.val t.isLt).2.1 (outsAt m c t.val t.isLt).2.2.1 (outsAt m c t.val t.isLt).2.2.2 := by
  have hk : (kiOf t).val = 0 := h0
  have i0 : ∀ p : Fin 512, (k0_pay4 (F := Idealize.ShloMosaic.Ideal)) (ix2 p 0) = stM xr (Dl m c) (qrow t p) ((kiOf t).val * 2048) := fun p => by
    rw [pay4_at, hk, Nat.zero_mul]; exact (init xr (Dl m c) (qrow t p) 0).1.symm
  have i1 : ∀ p : Fin 512, (k0_pay5 (F := Idealize.ShloMosaic.Ideal)) (ix2 p 0) = stL xr (Dl m c) (qrow t p) ((kiOf t).val * 2048) := fun p => by
    rw [pay5_at, hk, Nat.zero_mul]; exact (init xr (Dl m c) (qrow t p) 0).2.1.symm
  have i2 : ∀ (p : Fin 512) (d : Fin 1024), (k0_pay6 (F := Idealize.ShloMosaic.Ideal)) (ix2 p d) = stA xr (Dl m c) (qrow t p) d ((kiOf t).val * 2048) := fun p d => by
    rw [pay6_at, hk, Nat.zero_mul]; exact (init xr (Dl m c) (qrow t p) d).2.2.symm
  rw [outsAt_first m c t h0 h1]
  refine ⟨fun p => ?_, fun p => ?_, fun p d => ?_⟩
  · rw [first_max, pay2_eq]
    exact Update.new_max xr (Dl m c) (kiOf t) (qrow t) (iblk m c 0 t) (iblk m c 1 t) (iblk m c 2 t) (iblk m c 3 t) (hx0 m c xr hx t) (hx1 m c xr hx t) (hx2 m c t) (hx3 m c t) _ i0 p
  · rw [first_sum]
    exact Update.new_sum xr (Dl m c) (kiOf t) (qrow t) (iblk m c 0 t) (iblk m c 1 t) (iblk m c 2 t) (iblk m c 3 t) (hx0 m c xr hx t) (hx1 m c xr hx t) (hx2 m c t) (hx3 m c t) _ _ i0 i1 p
  · rw [first_acc]
    exact Update.new_acc xr (Dl m c) (kiOf t) (qrow t) (iblk m c 0 t) (iblk m c 1 t) (iblk m c 2 t) (iblk m c 3 t) (hx0 m c xr hx t) (hx1 m c xr hx t) (hx2 m c t) (hx3 m c t) _ _ i0 i2 p d

include hx in
/-- Any other point continues from the point before. -/
theorem good_step (t : Fin cfg0.N) (h0 : ¬t.val % 4 = 0)
    (p0 : ∀ p : Fin 512, (outsAt m c (t.val - 1) (Nat.lt_of_le_of_lt (Nat.sub_le _ _) t.isLt)).2.1 (ix2 p 0) = stM xr (Dl m c) (qrow t p) ((kiOf t).val * 2048))
    (p1 : ∀ p : Fin 512, (outsAt m c (t.val - 1) (Nat.lt_of_le_of_lt (Nat.sub_le _ _) t.isLt)).2.2.1 (ix2 p 0) = stL xr (Dl m c) (qrow t p) ((kiOf t).val * 2048))
    (p2 : ∀ (p : Fin 512) (d : Fin 1024), (outsAt m c (t.val - 1) (Nat.lt_of_le_of_lt (Nat.sub_le _ _) t.isLt)).2.2.2 (ix2 p d) = stA xr (Dl m c) (qrow t p) d ((kiOf t).val * 2048)) :
    Good m c xr t (outsAt m c t.val t.isLt).2.1 (outsAt m c t.val t.isLt).2.2.1 (outsAt m c t.val t.isLt).2.2.2 := by
  by_cases h1 : t.val % 4 = 3
  · rw [outsAt_last m c t h0 h1]
    refine ⟨fun p => ?_, fun p => ?_, fun p d => ?_⟩
    · rw [last_max, pay2_eq]
      exact Update.new_max xr (Dl m c) (kiOf t) (qrow t) (iblk m c 0 t) (iblk m c 1 t) (iblk m c 2 t) (iblk m c 3 t) (hx0 m c xr hx t) (hx1 m c xr hx t) (hx2 m c t) (hx3 m c t) _ p0 p
    · rw [last_sum]
      exact Update.new_sum xr (Dl m c) (kiOf t) (qrow t) (iblk m c 0 t) (iblk m c 1 t) (iblk m c 2 t) (iblk m c 3 t) (hx0 m c xr hx t) (hx1 m c xr hx t) (hx2 m c t) (hx3 m c t) _ _ p0 p1 p
    · rw [last_acc]
      exact Update.new_acc xr (Dl m c) (kiOf t) (qrow t) (iblk m c 0 t) (iblk m c 1 t) (iblk m c 2 t) (iblk m c 3 t) (hx0 m c xr hx t) (hx1 m c xr hx t) (hx2 m c t) (hx3 m c t) _ _ p0 p2 p d
  · rw [outsAt_mid m c t h0 h1]
    refine ⟨fun p => ?_, fun p => ?_, fun p d => ?_⟩
    · rw [mid_max, pay2_eq]
      exact Update.new_max xr (Dl m c) (kiOf t) (qrow t) (iblk m c 0 t) (iblk m c 1 t) (iblk m c 2 t) (iblk m c 3 t) (hx0 m c xr hx t) (hx1 m c xr hx t) (hx2 m c t) (hx3 m c t) _ p0 p
    · rw [mid_sum]
      exact Update.new_sum xr (Dl m c) (kiOf t) (qrow t) (iblk m c 0 t) (iblk m c 1 t) (iblk m c 2 t) (iblk m c 3 t) (hx0 m c xr hx t) (hx1 m c xr hx t) (hx2 m c t) (hx3 m c t) _ _ p0 p1 p
    · rw [mid_acc]
      exact Update.new_acc xr (Dl m c) (kiOf t) (qrow t) (iblk m c 0 t) (iblk m c 1 t) (iblk m c 2 t) (iblk m c 3 t) (hx0 m c xr hx t) (hx1 m c xr hx t) (hx2 m c t) (hx3 m c t) _ _ p0 p2 p d

include hx in
/-- After every point the statistics are good: by induction on the point. -/
theorem good_all : ∀ (n : ℕ) (h : n < cfg0.N),
    Good m c xr ⟨n, h⟩ (outsAt m c n h).2.1 (outsAt m c n h).2.2.1 (outsAt m c n h).2.2.2
  | 0, h => good_first m c xr hx ⟨0, h⟩ rfl (by show ¬(0 % 4 = 3); decide)
  | n + 1, h => by
    by_cases h0 : (n + 1) % 4 = 0
    · exact good_first m c xr hx ⟨n + 1, h⟩ h0 (by show ¬((n + 1) % 4 = 3); omega)
    · obtain ⟨g0, g1, g2⟩ := good_all n (Nat.lt_of_succ_lt h)
      have hq : ∀ p : Fin 512, qrow ⟨n, Nat.lt_of_succ_lt h⟩ p = qrow ⟨n + 1, h⟩ p := fun p => Fin.ext (by
        simp only [qrow_val]; omega)
      have hk : ((kiOf ⟨n, Nat.lt_of_succ_lt h⟩).val + 1) * 2048 = (kiOf ⟨n + 1, h⟩).val * 2048 := by
        show (n % 4 + 1) * 2048 = ((n + 1) % 4) * 2048
        omega
      refine good_step m c xr hx ⟨n + 1, h⟩ h0 (fun p => ?_) (fun p => ?_) (fun p d => ?_)
      · rw [← hq, ← hk]; exact g0 p
      · rw [← hq, ← hk]; exact g1 p
      · rw [← hq, ← hk]; exact g2 p d

/-! ## The result array -/

/-- The specification on the entry contents, as contents of the result array. -/
abbrev Gf : S8192x1024.Idx → EReal := fun i => G (toE xr) (Dl m c) i

include hx in
/-- What a point with key block 3 writes back is its block of the specification. -/
theorem flushed_eq (t : Fin cfg0.N) (hf : (cfg0.win 4).flush t = true) :
    (dats m 0 c).flushed 4 t = ((cfg0.win 4).blk t).view.read (Elt Idealize.ShloMosaic.Ideal) (Gf m c xr) := by
  have h1 : t.val % 4 = 3 := (flush0_4 t).mp hf
  have h0 : ¬t.val % 4 = 0 := by omega
  have hN := t_lt t
  have hz : t.val ≠ 0 := by omega
  -- the statistics before this point are good for the key rows below 3·2048
  obtain ⟨g0, g1, g2⟩ := good_all m c xr hx (t.val - 1) (Nat.lt_of_le_of_lt (Nat.sub_le _ _) t.isLt)
  have hq : ∀ p : Fin 512, qrow ⟨t.val - 1, Nat.lt_of_le_of_lt (Nat.sub_le _ _) t.isLt⟩ p = qrow t p := fun p => Fin.ext (by
    simp only [qrow_val]; omega)
  have hk : ((kiOf ⟨t.val - 1, Nat.lt_of_le_of_lt (Nat.sub_le _ _) t.isLt⟩).val + 1) * 2048 = (kiOf t).val * 2048 := by
    show ((t.val - 1) % 4 + 1) * 2048 = (t.val % 4) * 2048
    omega
  have p0 : ∀ p : Fin 512, (outsAt m c (t.val - 1) (Nat.lt_of_le_of_lt (Nat.sub_le _ _) t.isLt)).2.1 (ix2 p 0) = stM xr (Dl m c) (qrow t p) ((kiOf t).val * 2048) := fun p => by
    rw [← hq, ← hk]; exact g0 p
  have p1 : ∀ p : Fin 512, (outsAt m c (t.val - 1) (Nat.lt_of_le_of_lt (Nat.sub_le _ _) t.isLt)).2.2.1 (ix2 p 0) = stL xr (Dl m c) (qrow t p) ((kiOf t).val * 2048) := fun p => by
    rw [← hq, ← hk]; exact g1 p
  have p2 : ∀ (p : Fin 512) (d : Fin 1024), (outsAt m c (t.val - 1) (Nat.lt_of_le_of_lt (Nat.sub_le _ _) t.isLt)).2.2.2 (ix2 p d) = stA xr (Dl m c) (qrow t p) d ((kiOf t).val * 2048) := fun p d => by
    rw [← hq, ← hk]; exact g2 p d
  have hk3 : ((kiOf t).val + 1) * 2048 = 8192 := by
    show (t.val % 4 + 1) * 2048 = 8192
    omega
  show (cfg0.win 4).cut (grid0.coords t) ((dats m 0 c).after 4 t) = _
  rw [after_out, outsAt_last m c t h0 h1, last_out]
  funext j
  obtain ⟨p, d, rfl⟩ : ∃ (p : Fin 512) (d : Fin 1024), j = ix2 p d := ⟨j 0, j 1, eq_ix2 j⟩
  rw [out_read_at]
  show k0_pay3 _ _ (ix2 p d) = _
  rw [pay3_at,
    Update.new_acc xr (Dl m c) (kiOf t) (qrow t) (iblk m c 0 t) (iblk m c 1 t) (iblk m c 2 t) (iblk m c 3 t) (hx0 m c xr hx t) (hx1 m c xr hx t) (hx2 m c t) (hx3 m c t) _ _ p0 p2 p d,
    Update.new_sum xr (Dl m c) (kiOf t) (qrow t) (iblk m c 0 t) (iblk m c 1 t) (iblk m c 2 t) (iblk m c 3 t) (hx0 m c xr hx t) (hx1 m c xr hx t) (hx2 m c t) (hx3 m c t) _ _ p0 p1 p, hk3]
  exact final xr (Dl m c) (qrow t p) d

include hx in
/-- The result array ends holding the specification. -/
theorem final_out : (dats m 0 c).arrAt 4 cfg0.N = Gf m c xr :=
  (dats m 0 c).arrAt_eq_of_cover 4 (Gf m c xr) (fun t hf => flushed_eq m c xr hx t hf) out_cover

end Cert.KernelIdeal.Flash.Value

end
-- ==== Proof.RefIsG.lean ====
/-
  The reference's result, at the ideal values (floats as extended reals), is the specification `Cert.Attn.G`, index by index.

  The reference computes, for x : [8192, 1024] and labels doc : [8192],
      s(r, c)  = (Σ_k x(r,k)·x(c,k)) · (1 / √1024) + [doc r = doc c]           (the scores),
      m(r)     = max(−∞, fold of max from −∞ over c of s(r, c))                 (the row maximum),
      e(r, c)  = exp(s(r, c) − m(r)),     n(r) = 0 + Σ_c e(r, c),
      out(r,d) = Σ_c (e(r, c) / n(r)) · x(c, d).
  The specification is the same function with the three constants evaluated: 1 / √1024 is the real 1/32 (`scale_eq`), the
  comparison bit read as a number is the 0/1 bias (`bias_eq`), the pattern of −∞ is ⊥ so that max(⊥, ·) is the identity and
  the fold starts at ⊥ (`rowMax_eq`), and the pattern of zero is 0 (`denom_eq`). No entry is assumed finite: every step is
  an equation between the same extended-real operations on both sides.
  Each lemma reads one named intermediate of the reference at coordinates (r, c) or r: `score_eq`, `rowMax_eq`,
  `weight_eq`, `denom_eq`, `quot_eq`; `ref_eq` is the result.
-/
import proofs.«134597_j4166118277821_2_alg».proof.Proof.Gen.ReferenceIdeal.Read
import proofs.«134597_j4166118277821_2_alg».proof.Proof.AttnSpec
import Idealize.ShloMosaic.Lib.IdealHost

noncomputable section

namespace Cert.Attn.Ref

open Cert.ReferenceIdeal Cert.ReferenceIdeal.Gen Cert.ReferenceIdeal.Read Idealize.ShloMosaic Idealize.ShloMosaic.ValueIdx Cert.Attn

/-- √1024 = 32. -/
theorem sqrt_1024 : Real.sqrt 1024 = 32 := by
  rw [show (1024 : ℝ) = 32 ^ 2 by norm_num]; exact Real.sqrt_sq (by norm_num)

/-- The f32 pattern `0x44800000` is the real 1024. -/
theorem ofBits_1024 : Ideal.ofBits .f32 0x44800000#32 = ((1024 : ℝ) : EReal) := by
  simp [Ideal.ofBits, Ideal.ieee, -EReal.coe_mul]; norm_num

/-- The f32 pattern `0xFF800000` is −∞. -/
theorem ofBits_neg_inf : Ideal.ofBits .f32 0xFF800000#32 = (⊥ : EReal) := by
  simp [Ideal.ofBits, Ideal.ieee]

/-- The scale: 1 / √1024 is 1/32. -/
theorem scale_eq (i : S_.Idx) : val_main_v1 (F := Ideal) i = scale := by
  rw [val_main_v1_apply, val_main_cst_0_apply, val_main_v0_apply, val_main_cst_apply]
  simp only [Ideal.hostDivf_def, Ideal.hostUnary_sqrt_def, Ideal.ofBits_def, Ideal.ofBits_one_f32, ofBits_1024, Ideal.sqrt_coe]
  rw [if_neg (by norm_num), sqrt_1024, Ideal.div_coe (by norm_num), one_mul]
  rfl

/-- The bias: the comparison bit read as a number is 1 on equal labels and 0 otherwise. -/
theorem bias_eq (a b : BitVec 32) : FloatOps.uitofp (F := Ideal) .f32 (IntOp.cmpi .eq a b) = bias a b := by
  show (((IntOp.cmpi .eq a b).toNat : ℝ) : EReal) = bias a b
  unfold bias IntOp.cmpi
  by_cases h : a = b
  · simp [h]
  · simp [h]

variable (x0 : (⟨S8192x1024, .f32⟩ : BufTy).Contents (Elt Ideal)) (x1 : (⟨S8192, .i32⟩ : BufTy).Contents (Elt Ideal))

/-- The score of key row c for query row r. -/
theorem score_eq (r c : Fin 8192) : val_main_v11 (F := Ideal) x0 x1 (ix2 r c) = score x0 x1 r c := by
  have el : ∀ k : Fin 1024, lidx_main_v2 (ix2 r c) k = ix2 r k := fun k =>
    funext fun a => Fin.ext (by match a with | ⟨0, _⟩ => rfl | ⟨1, _⟩ => rfl)
  have er : ∀ k : Fin 1024, ridx_main_v2 (ix2 r c) k = ix2 c k := fun k =>
    funext fun a => Fin.ext (by match a with | ⟨0, _⟩ => rfl | ⟨1, _⟩ => rfl)
  have e7 : idx_main_v5 (idx_main_v7 (ix2 r c)) = ix1 r :=
    funext fun a => Fin.ext (by match a with | ⟨0, _⟩ => rfl)
  have e8 : idx_main_v6 (idx_main_v8 (ix2 r c)) = ix1 c :=
    funext fun a => Fin.ext (by match a with | ⟨0, _⟩ => rfl)
  rw [val_main_v11_apply, val_main_v4_apply, val_main_v2_apply, val_main_v3_apply, scale_eq, val_main_v10_apply,
    val_main_v9_apply, val_main_v7_apply, val_main_v5_apply, val_main_v8_apply, val_main_v6_apply, e7, e8, bias_eq]
  simp only [el, er]
  rfl

/-- A row index of the reduced array with the column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The largest score of row r: the reduce from −∞, then the maximum with −∞. -/
theorem rowMax_eq (r : Fin 8192) : val_main_v14 (F := Ideal) x0 x1 (ix1 r) = rowMax x0 x1 r := by
  have h : S8192x8192.Reduces [1] S8192 := by decide
  rw [val_main_v14_apply, val_main_v13_apply, val_main_cst_2_apply]
  unfold val_main_v12
  rw [Host.reduce_eq_fold_single FloatOps.maximumf _ _ reducesTo_S8192x8192_S8192_d1 h h_S_]
  simp only [Ideal.maximumf_def, Ideal.ofBits_def, ofBits_neg_inf]
  rw [val_main_cst_1_apply]
  simp only [Ideal.ofBits_def, ofBits_neg_inf]
  rw [max_eq_right bot_le]
  unfold rowMax
  have hf : (val_main_v11 (F := Ideal) x0 x1 ∘ h.lift (ix1 r)) = fun c : Fin 8192 => score x0 x1 r c :=
    funext fun k => (congrArg (val_main_v11 (F := Ideal) x0 x1) (lift_row h r k)).trans (score_eq x0 x1 r _)
  exact congrArg (fun f => Finset.fold max (⊥ : EReal) f (Finset.univ : Finset (Fin 8192))) hf

/-- The unnormalised weight of key row c for query row r. -/
theorem weight_eq (r c : Fin 8192) : val_main_v18 (F := Ideal) x0 x1 (ix2 r c) = weight x0 x1 r c := by
  have e : idx_main_v15 (idx_main_v16 (ix2 r c)) = ix1 r :=
    funext fun a => Fin.ext (by match a with | ⟨0, _⟩ => rfl)
  rw [val_main_v18_apply, val_main_v17_apply, val_main_v16_apply, val_main_v15_apply, e, rowMax_eq, score_eq]
  rfl

/-- The normaliser of row r: zero plus the sum of the row's weights. -/
theorem denom_eq (r : Fin 8192) : val_main_v19 (F := Ideal) x0 x1 (ix1 r) = denom x0 x1 r := by
  have e : ∀ k : Fin 8192, idx_main_v19 (ix1 r) k = ix2 r k := fun k =>
    funext fun a => Fin.ext (by match a with | ⟨0, _⟩ => rfl | ⟨1, _⟩ => rfl)
  rw [val_main_v19_apply, val_main_cst_3_apply]
  simp only [Ideal.ofBits_def, Ideal.ofBits_zero_f32, zero_add, e, weight_eq]
  rfl

/-- The normalised weight of key row c for query row r. -/
theorem quot_eq (r c : Fin 8192) :
    val_main_v22 (F := Ideal) x0 x1 (ix2 r c) = Ideal.div (weight x0 x1 r c) (denom x0 x1 r) := by
  have e : idx_main_v20 (idx_main_v21 (ix2 r c)) = ix1 r :=
    funext fun a => Fin.ext (by match a with | ⟨0, _⟩ => rfl)
  rw [val_main_v22_apply, val_main_v21_apply, val_main_v20_apply, e, denom_eq, weight_eq]
  rfl

/-- The reference's result is the specification, index by index. -/
theorem ref_eq : val_main_v23 (F := Ideal) x0 x1 = fun i => Cert.Attn.G x0 x1 i := by
  funext i
  have el : ∀ k : Fin 8192, lidx_main_v23 i k = ix2 (i 0) k := fun k =>
    funext fun a => Fin.ext (by match a with | ⟨0, _⟩ => rfl | ⟨1, _⟩ => rfl)
  have er : ∀ k : Fin 8192, ridx_main_v23 i k = ix2 k (i 1) := fun k =>
    funext fun a => Fin.ext (by match a with | ⟨0, _⟩ => rfl | ⟨1, _⟩ => rfl)
  rw [val_main_v23_apply]
  unfold G
  refine Finset.sum_congr rfl fun k _ => ?_
  rw [el, er]
  exact congrArg (· * x0 (ix2 k (i 1))) (quot_eq x0 x1 (i 0) k)

end Cert.Attn.Ref

end
-- ==== Proof.FiniteArgs.lean ====
/-
  Finiteness of the first argument. The precondition evaluates `jnp.all(|x| < +inf)` over the
  f32[8192,1024] argument to one, on every device. Read at the ideal instance (floats are extended
  reals): every entry `x` has `max x (-x) < ⊤`, which excludes both `⊤` and `⊥`, so every entry is
  (the coercion of) a real number.
-/
import proofs.«134597_j4166118277821_2_alg».proof.Defs
import proofs.«134597_j4166118277821_2_alg».proof.Proof.Gen.Pre_finite_inputs
import Idealize.ShloMosaic.Lib.ReduceAll
import Idealize.ShloMosaic.Lib.ValueIdx

noncomputable section

namespace Cert.Attn.Finite

open Idealize.ShloMosaic Idealize.SL.Sem

/-- A rank-0 shape has exactly one index. -/
instance subsingleton_S_Idx : Subsingleton Cert.Pre_finite_inputs.S_.Idx :=
  ⟨fun a b => funext fun d => d.elim0⟩

/-- The f32 pattern `0x7F800000` (sign 0, exponent all ones, fraction 0) denotes `+∞`. -/
theorem ofBits_f32_inf : Ideal.ofBits .f32 0x7F800000#32 = (⊤ : EReal) := by
  simp [Ideal.ofBits, Ideal.ieee]

/-- An extended real whose absolute value `max x (-x)` lies strictly below `⊤` is a real number:
    `x = ⊤` gives `max ⊤ ⊥ = ⊤`, `x = ⊥` gives `max ⊥ ⊤ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The element fact the predicate compares: `|x| < +∞` at the ideal instance, read back. -/
theorem real_of_cmp (x : EReal)
    (h : Ideal.cmp .olt (max x (-x)) (Ideal.ofBits .f32 0x7F800000#32) = 1#1) : ∃ r : ℝ, x = (r : EReal) := by
  rw [ofBits_f32_inf] at h
  refine real_of_abs_lt_top x ?_
  by_contra hn
  have h0 : Ideal.cmp .olt (max x (-x)) ⊤ = 0#1 := by
    show BitVec.ofBool (decide (max x (-x) < ⊤)) = 0#1
    rw [decide_eq_false hn]; rfl
  rw [h0] at h
  exact absurd h (by decide)

theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ xr : Cert.KernelIdeal.S8192x1024.Idx → ℝ, ∀ i,
      m ((c.tc : Thread Cert.KernelIdeal.nD Cert.KernelIdeal.τ).loc Cert.KernelIdeal.main_arg0) i = ((xr i : ℝ) : EReal) := by
  have h0 := congrFun (h c) ValueIdx.ix0
  dsimp only [Cert.Pre_finite_inputs.fn] at h0
  -- every entry of the compared array is one
  have hall := Host.reduce_andi_all _ _ _ _ _ h0
  -- hence every entry is a real number
  have hreal : ∀ i : Cert.KernelIdeal.S8192x1024.Idx, ∃ r : ℝ,
      (m ((c.tc : Thread Cert.KernelIdeal.nD Cert.KernelIdeal.τ).loc Cert.KernelIdeal.main_arg0) i : EReal) = (r : EReal) :=
    fun i => real_of_cmp _ (hall i)
  exact ⟨fun i => (hreal i).choose, fun i => (hreal i).choose_spec⟩

end Cert.Attn.Finite
-- ==== Proof.lean ====
/-
  The certificate of the attention kernel against its softmax reference.

  Both programs compute, for x : [8192, 1024] and labels doc : [8192],
      out(r, d) = Σ_c  exp(s(r,c) − M r) / (Σ_c' exp(s(r,c') − M r)) · x(c, d),    s(r,c) = (Σ_k x(r,k)·x(c,k))/32 + [doc r = doc c],
  M r the largest score of row r. The reference computes it in one pass (its term, read operation by operation, is the
  specification with no hypothesis). The kernel tiles the key rows in four blocks of 2048 and keeps, per query row, a
  running maximum m, a running normaliser l and a running weighted sum a, rescaling l and a by exp(m_old − m_new) at
  every block and dividing a by l after the last: the online form of the same softmax. The two agree on the reals:
      exp(m_old − m_new) · Σ_{c seen} exp(s_c − m_old) · w_c  =  Σ_{c seen} exp(s_c − m_new) · w_c,
  which needs every entry finite — the certificate's precondition —, while −∞ as the starting maximum makes the first
  rescaling factor exp(−∞) = 0 against the starting sums 0. The factor 1/32 is the same number on both sides: the
  kernel's literal 2⁻⁵ and the reference's 1/√1024.

  The three frames: the two kernel programs run to the end, fault nowhere and leave the arguments as launched (the
  region's run: its two windows on x share the array by halves of its share; the three statistics are carried from
  point to point in the invariant); the reference's frame is its run with the result dropped. The kernel's
  idealization rewrote nothing.
-/
import proofs.«134597_j4166118277821_2_alg».proof.Defs
import proofs.«134597_j4166118277821_2_alg».proof.Proof.Gen.Kernel
import proofs.«134597_j4166118277821_2_alg».proof.Proof.Gen.KernelIdeal
import proofs.«134597_j4166118277821_2_alg».proof.Proof.Gen.ReferenceIdeal
import proofs.«134597_j4166118277821_2_alg».proof.Proof.Gen.Pre_finite_inputs
import proofs.«134597_j4166118277821_2_alg».proof.Proof.Gen.ReferenceIdeal.Run
import proofs.«134597_j4166118277821_2_alg».proof.Proof.BitsFrame
import proofs.«134597_j4166118277821_2_alg».proof.Proof.IdealValue
import proofs.«134597_j4166118277821_2_alg».proof.Proof.RefIsG
import proofs.«134597_j4166118277821_2_alg».proof.Proof.FiniteArgs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Flash.frame m ρ

/-- So does its idealization. -/
theorem frame_ki : Cert.frame_KernelIdeal := fun m ρ _ => Cert.KernelIdeal.Flash.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite x both programs end with the specification of the arguments in their result arrays. -/
theorem algebraic : Cert.algebraic_KernelIdeal_ReferenceIdeal := by
  intro m ρ m' ρ' hpre hagree
  choose xr hxr using fun c => Cert.Attn.Finite.real_of_pre m hpre c
  have hX : ∀ c : Dev Cert.KernelIdeal.nD,
      (m ((c.tc : Thread Cert.KernelIdeal.nD Cert.KernelIdeal.τ).loc Cert.KernelIdeal.main_arg0) : Cert.Attn.SX.Idx → EReal) = Cert.Attn.Online.toE (xr c) :=
    fun c => funext (hxr c)
  refine ⟨fun c => Cert.KernelIdeal.Flash.Value.Gf m c (xr c), ?_, ?_⟩
  · exact (θ_run Cert.KernelIdeal.defs _ _).mono (fun r h c =>
      ⟨((h c).1 4).trans (Cert.KernelIdeal.Flash.Value.final_out m c (xr c) (hxr c)),
       ((h c).2 Cert.KernelIdeal.main_arg0 (Pipeline.mem_restRefs_of Cert.KernelIdeal.main_arg0 rfl (by decide))).trans (Cert.KernelIdeal.Flash.V_main_arg0 m c),
       ((h c).2 Cert.KernelIdeal.main_arg1 (Pipeline.mem_restRefs_of Cert.KernelIdeal.main_arg1 rfl (by decide))).trans (Cert.KernelIdeal.Flash.V_main_arg1 m c)⟩)
      (Cert.KernelIdeal.Flash.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.Attn.Ref.ref_eq, (hagree c).1, (hagree c).2]
    show (fun i => Cert.Attn.G _ _ i) = fun i => Cert.Attn.G (Cert.Attn.Online.toE (xr c)) _ i
    rw [hX c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
